-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x64x64 : Shape := ⟨4, ![4096, 3, 64, 64]⟩
abbrev S_ : Shape := ⟨0, ![]⟩

class Facts : Prop where
  bcast_S_S4096x3x64x64 : S_.BroadcastsInDim S4096x3x64x64 (![] : Fin 0 → Fin S4096x3x64x64.rank)
  reducesTo_S4096x3x64x64_S_d0_1_2_3 : S4096x3x64x64.ReducesTo [0, 1, 2, 3] S_
  h_S_ : 0 < S_.numel

variable [Facts]

def fn {F : FTy → Type} [FloatOps F] (main_arg0 : FVec F S4096x3x64x64 .f32) : IVec S_ 1 :=
  let main_v0 : FVec F S4096x3x64x64 .f32 := Host.absf main_arg0
  let main_cst : FVec F S_ .f32 := constant S_ .f32 0x7F800000#32
  let main_v1 : FVec F S4096x3x64x64 .f32 := broadcastInDim S4096x3x64x64 ![] bcast_S_S4096x3x64x64 main_cst
  let main_v2 : IVec S4096x3x64x64 1 := cmpf .olt main_v0 main_v1
  let main_c : IVec S_ 1 := constantI S_ 1 1#1
  let main_v3 : IVec S_ 1 := (fun x v => Host.reduce IntOp.andi x v reducesTo_S4096x3x64x64_S_d0_1_2_3 h_S_) main_v2 main_c
  main_v3
-- ==== Kernel.lean ====
abbrev S4096x3x64x64 : Shape := ⟨4, ![4096, 3, 64, 64]⟩
abbrev S4096x3x4096 : Shape := ⟨3, ![4096, 3, 4096]⟩
abbrev S4096x1x4096 : Shape := ⟨3, ![4096, 1, 4096]⟩
abbrev S4096x4096 : Shape := ⟨2, ![4096, 4096]⟩
abbrev S512x4096 : Shape := ⟨2, ![512, 4096]⟩
abbrev S256x4096 : Shape := ⟨2, ![256, 4096]⟩
abbrev S512x1 : Shape := ⟨2, ![512, 1]⟩
abbrev S512x256 : Shape := ⟨2, ![512, 256]⟩
abbrev S512 : Shape := ⟨1, ![512]⟩

abbrev nBuf : Space → Nat
  | .hbm => 18
  | .vmem => 15
  | .smem => 0
  | _ => 0

abbrev bufTy : (tb : Table) → Fin (tcTables nBuf tb) → BufTy
  | .hbm, ⟨0, _⟩ => ⟨S4096x3x64x64, .f32⟩
  | .hbm, ⟨1, _⟩ => ⟨S4096x3x4096, .f32⟩
  | .hbm, ⟨2, _⟩ => ⟨S4096x1x4096, .f32⟩
  | .hbm, ⟨3, _⟩ => ⟨S4096x4096, .f32⟩
  | .hbm, ⟨4, _⟩ => ⟨S4096x1x4096, .f32⟩
  | .hbm, ⟨5, _⟩ => ⟨S4096x4096, .f32⟩
  | .hbm, ⟨6, _⟩ => ⟨S4096x1x4096, .f32⟩
  | .hbm, ⟨7, _⟩ => ⟨S4096x4096, .f32⟩
  | .hbm, ⟨8, _⟩ => ⟨S4096x4096, .bf16⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S4096x4096, .bf16⟩
  | .hbm, ⟨13, _⟩ => ⟨S4096x4096, .f32⟩
  | .hbm, ⟨14, _⟩ => ⟨S4096x4096, .f32⟩
  | .hbm, ⟨15, _⟩ => ⟨S4096x4096, .bf16⟩
  | .hbm, ⟨16, _⟩ => ⟨S4096x4096, .bf16⟩
  | .hbm, ⟨17, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S512x4096, .f32⟩
  | .local _ .vmem, ⟨11, _⟩ => ⟨S512x4096, .f32⟩
  | .local _ .vmem, ⟨12, _⟩ => ⟨S512x1, .f32⟩
  | .local _ .vmem, ⟨13, _⟩ => ⟨S512x1, .f32⟩
  | .local _ .vmem, ⟨14, _⟩ => ⟨S512x4096, .f32⟩
  | _, _ => ⟨S4096x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v50 : BitVec 1 := Scalar.cmpi .eq arg1 c15_i32
  let v51 : BitVec 32 := Scalar.extui v50
  let c0_i32_30 : BitVec 32 := 0#32
  let v52 : BitVec 1 := Scalar.cmpi .ne v51 c0_i32_30
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4096x3x64x64_S4096x3x4096 : S4096x3x64x64.ShapeCasts S4096x3x4096
  slices_S4096x3x4096_S4096x1x4096_0_0_0 : S4096x3x4096.Slices ![0, 0, 0] S4096x1x4096
  shapeCasts_S4096x1x4096_S4096x4096 : S4096x1x4096.ShapeCasts S4096x4096
  slices_S4096x3x4096_S4096x1x4096_0_1_0 : S4096x3x4096.Slices ![0, 1, 0] S4096x1x4096
  slices_S4096x3x4096_S4096x1x4096_0_2_0 : S4096x3x4096.Slices ![0, 2, 0] S4096x1x4096
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S512x256_S512 : S512x256.Reduces [1] S512
  shapeCasts_S512_S512x1 : S512.ShapeCasts S512x1
  broadcasts_S512x1_S512x256 : S512x1.Broadcasts S512x256
  broadcasts_S512x1_S512x4096 : S512x1.Broadcasts S512x4096
  dot_S512x4096_S256x4096_S512x256_1_1_0_0_n_n_wf : DotDims.WF S512x4096 S256x4096 S512x256 [1] [1] [0] [0] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S4096x4096.size a
  hwx0_5 : ∀ i : grid0.Coords, EltTy.bits .f32 = 32 ∨ (Rect.block (s := S4096x4096) S512x4096.size (cc0_transform_5 i) (hinb0_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v7) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x3x64x64 : Shape := ⟨4, ![4096, 3, 64, 64]⟩
abbrev S4096x3x4096 : Shape := ⟨3, ![4096, 3, 4096]⟩
abbrev S4096x1x4096 : Shape := ⟨3, ![4096, 1, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x3x64x64, .f32⟩
  | .hbm, ⟨1, _⟩ => ⟨S4096x3x4096, .f32⟩
  | .hbm, ⟨2, _⟩ => ⟨S4096x1x4096, .f32⟩
  | .hbm, ⟨3, _⟩ => ⟨S4096x4096, .f32⟩
  | .hbm, ⟨4, _⟩ => ⟨S4096x1x4096, .f32⟩
  | .hbm, ⟨5, _⟩ => ⟨S4096x4096, .f32⟩
  | .hbm, ⟨6, _⟩ => ⟨S4096x1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x4096, .f32⟩
  | .hbm, ⟨26, _⟩ => ⟨S4096x4096, .f32⟩
  | .hbm, ⟨27, _⟩ => ⟨S4096x4096, .f32⟩
  | _, _ => ⟨S4096x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]

class Facts₀ : Prop where
  shapeCasts_S4096x3x64x64_S4096x3x4096 : S4096x3x64x64.ShapeCasts S4096x3x4096
  slices_S4096x3x4096_S4096x1x4096_0_0_0 : S4096x3x4096.Slices ![0, 0, 0] S4096x1x4096
  shapeCasts_S4096x1x4096_S4096x4096 : S4096x1x4096.ShapeCasts S4096x4096
  slices_S4096x3x4096_S4096x1x4096_0_1_0 : S4096x3x4096.Slices ![0, 1, 0] S4096x1x4096
  slices_S4096x3x4096_S4096x1x4096_0_2_0 : S4096x3x4096.Slices ![0, 2, 0] S4096x1x4096
  transposes_S4096x4096_S4096x4096_1_0 : S4096x4096.Transposes [1, 0] S4096x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibOnlineSoftmax.lean ====
/-
  A softmax-weighted average accumulated block by block.

  Fix one row of logits and one column of values, the columns cut into consecutive blocks of B entries: the logit of
  entry c of block t is σ t c, its value ν t c. For a shift μ write den μ n for the sum over the first n blocks of
  exp (σ - μ), and num μ n for the same sum weighted by ν. Changing the shift from μ to μ' multiplies both by
  exp (μ - μ'), so the quotient num / den does not depend on the shift: it is the softmax-weighted average of ν over the
  first n blocks.

  The running computation carries a triple (m, l, acc): m a running maximum of the logits seen so far, l = den m n and
  acc = num m n. One more block replaces m by m' = max m (the block's maximum), rescales l and acc by exp (m - m') and
  adds the block's own sums at shift m': that is den m' (n+1) and num m' (n+1) again. The first block starts from
  m = -∞, l = 0, acc = 0, where exp (-∞ - m') = 0 and nothing is carried over. After the last block acc / l is the average.
  The direct computation takes the maximum M of the whole row, the sums at shift M, and averages exp (σ - M) / den M
  against ν: the same average. Everything is exact over the reals; the extended reals only enter through -∞ at the start.
-/
import Idealize.ShloMosaic.PureOps.Ideal
import Idealize.ShloMosaic.PureOps.Ideal.Laws

noncomputable section

open scoped BigOperators

namespace Cert.OnlineSoftmax

open Idealize.ShloMosaic

variable {B : ℕ}

/-- The sum over the first n blocks of the exponentials of the logits shifted by μ. -/
def den (σ : ℕ → Fin B → ℝ) (μ : ℝ) (n : ℕ) : ℝ := ∑ t ∈ Finset.range n, ∑ c : Fin B, Real.exp (σ t c - μ)

/-- The same sum, each exponential weighted by its value. -/
def num (σ ν : ℕ → Fin B → ℝ) (μ : ℝ) (n : ℕ) : ℝ :=
  ∑ t ∈ Finset.range n, ∑ c : Fin B, Real.exp (σ t c - μ) * ν t c

/-- Changing the shift rescales the denominator … -/
theorem den_shift (σ : ℕ → Fin B → ℝ) (μ μ' : ℝ) (n : ℕ) : Real.exp (μ - μ') * den σ μ n = den σ μ' n := by
  unfold den
  rw [Finset.mul_sum]
  refine Finset.sum_congr rfl fun t _ => ?_
  rw [Finset.mul_sum]
  refine Finset.sum_congr rfl fun c _ => ?_
  rw [← Real.exp_add]
  congr 1; ring

/-- … and the numerator by the same factor. -/
theorem num_shift (σ ν : ℕ → Fin B → ℝ) (μ μ' : ℝ) (n : ℕ) : Real.exp (μ - μ') * num σ ν μ n = num σ ν μ' n := by
  unfold num
  rw [Finset.mul_sum]
  refine Finset.sum_congr rfl fun t _ => ?_
  rw [Finset.mul_sum]
  refine Finset.sum_congr rfl fun c _ => ?_
  rw [← mul_assoc, ← Real.exp_add]
  congr 2; ring

theorem den_succ (σ : ℕ → Fin B → ℝ) (μ : ℝ) (n : ℕ) :
    den σ μ (n + 1) = den σ μ n + ∑ c : Fin B, Real.exp (σ n c - μ) := Finset.sum_range_succ _ _

theorem num_succ (σ ν : ℕ → Fin B → ℝ) (μ : ℝ) (n : ℕ) :
    num σ ν μ (n + 1) = num σ ν μ n + ∑ c : Fin B, Real.exp (σ n c - μ) * ν n c := Finset.sum_range_succ _ _

/-- Over at least one nonempty block the denominator is positive. -/
theorem den_pos (hB : 0 < B) (σ : ℕ → Fin B → ℝ) (μ : ℝ) {n : ℕ} (hn : 0 < n) : 0 < den σ μ n := by
  haveI : Nonempty (Fin B) := ⟨⟨0, hB⟩⟩
  unfold den
  refine Finset.sum_pos (fun t _ => Finset.sum_pos (fun c _ => Real.exp_pos _) Finset.univ_nonempty) ?_
  exact Finset.nonempty_range_iff.mpr (by omega)

/-- The softmax-weighted average of the values over the first n blocks. -/
def avg (σ ν : ℕ → Fin B → ℝ) (n : ℕ) : ℝ := num σ ν 0 n / den σ 0 n

/-- The quotient at any shift is the average. -/
theorem quot_shift (σ ν : ℕ → Fin B → ℝ) (μ : ℝ) (n : ℕ) : num σ ν μ n / den σ μ n = avg σ ν n := by
  unfold avg
  rw [← num_shift σ ν 0 μ n, ← den_shift σ 0 μ n, mul_div_mul_left _ _ (Real.exp_pos _).ne']

/-! ## Carrying reals through the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max).symm

theorem exp_sub_coe (a b : ℝ) : Ideal.exp ((a : EReal) - (b : EReal)) = ((Real.exp (a - b) : ℝ) : EReal) := by
  rw [← EReal.coe_sub]; rfl

theorem div_real (x : ℝ) {y : ℝ} (h : y ≠ 0) : Ideal.div (x : EReal) (y : EReal) = ((x / y : ℝ) : EReal) := by
  rw [Ideal.div_coe h, ← EReal.coe_mul]; congr 1; field_simp

theorem sum_exp_coe {ι : Type*} [Fintype ι] (sr : ι → ℝ) (μ : ℝ) :
    (∑ c, Ideal.exp ((sr c : EReal) - (μ : EReal))) = ((∑ c, Real.exp (sr c - μ) : ℝ) : EReal) := by
  rw [coe_sum]; exact Finset.sum_congr rfl fun c _ => exp_sub_coe _ _

theorem sum_exp_mul_coe {ι : Type*} [Fintype ι] (sr vr : ι → ℝ) (μ : ℝ) :
    (∑ c, Ideal.exp ((sr c : EReal) - (μ : EReal)) * (vr c : EReal))
      = ((∑ c, Real.exp (sr c - μ) * vr c : ℝ) : EReal) := by
  rw [coe_sum]; exact Finset.sum_congr rfl fun c _ => by rw [exp_sub_coe, ← EReal.coe_mul]

/-- The maximum of finitely many reals, folded from -∞ over a nonempty set, is a real. -/
theorem fold_max_coe {ι : Type*} (s : Finset ι) (hs : s.Nonempty) (f : ι → ℝ) :
    ∃ β : ℝ, s.fold max (⊥ : EReal) (fun k => (f k : EReal)) = (β : EReal) := by
  classical
  induction s using Finset.induction_on with
  | empty => exact absurd hs (by simp)
  | insert a s ha ih =>
    rw [Finset.fold_insert ha]
    rcases s.eq_empty_or_nonempty with rfl | hne
    · exact ⟨f a, by rw [Finset.fold_empty]; exact max_eq_left bot_le⟩
    · obtain ⟨β, hβ⟩ := ih hne
      exact ⟨max (f a) β, by rw [hβ, coe_max]⟩

/-! ## The carried triple -/

variable {D : Type*}

/-- What one row carries after n blocks: a real running maximum, and the denominator and the numerators (one per
    value column d) at that shift. -/
def Carried (σ : ℕ → Fin B → ℝ) (ν : D → ℕ → Fin B → ℝ) (n : ℕ) (m l : EReal) (acc : D → EReal) : Prop :=
  ∃ μ : ℝ, m = (μ : EReal) ∧ l = ((den σ μ n : ℝ) : EReal) ∧ ∀ d, acc d = ((num σ (ν d) μ n : ℝ) : EReal)

/-- The first block, started from m = -∞, l = 0, acc = 0. -/
theorem carried_first (hB : 0 < B) (σ : ℕ → Fin B → ℝ) (ν : D → ℕ → Fin B → ℝ) (m' l' : EReal) (acc' : D → EReal)
    (hm : m' = max (⊥ : EReal) (Finset.univ.fold max (⊥ : EReal) fun c => (σ 0 c : EReal)))
    (hl : l' = Ideal.exp ((⊥ : EReal) - m') * 0 + ∑ c, Ideal.exp ((σ 0 c : EReal) - m'))
    (hacc : ∀ d, acc' d = Ideal.exp ((⊥ : EReal) - m') * 0 + ∑ c, Ideal.exp ((σ 0 c : EReal) - m') * (ν d 0 c : EReal)) :
    Carried σ ν 1 m' l' acc' := by
  haveI : Nonempty (Fin B) := ⟨⟨0, hB⟩⟩
  obtain ⟨β, hβ⟩ := fold_max_coe Finset.univ Finset.univ_nonempty (σ 0)
  have hm' : m' = (β : EReal) := by rw [hm, hβ]; exact max_eq_right bot_le
  refine ⟨β, hm', ?_, fun d => ?_⟩
  · rw [hl, hm', mul_zero, zero_add, sum_exp_coe]; unfold den; rw [Finset.sum_range_one]
  · rw [hacc d, hm', mul_zero, zero_add, sum_exp_mul_coe]; unfold num; rw [Finset.sum_range_one]

/-- One more block: rescale what is carried to the new maximum and add the block's sums. -/
theorem carried_step (hB : 0 < B) (σ : ℕ → Fin B → ℝ) (ν : D → ℕ → Fin B → ℝ) {n : ℕ} {m l : EReal} {acc : D → EReal}
    (h : Carried σ ν n m l acc) (m' l' : EReal) (acc' : D → EReal)
    (hm : m' = max m (Finset.univ.fold max (⊥ : EReal) fun c => (σ n c : EReal)))
    (hl : l' = Ideal.exp (m - m') * l + ∑ c, Ideal.exp ((σ n c : EReal) - m'))
    (hacc : ∀ d, acc' d = Ideal.exp (m - m') * acc d + ∑ c, Ideal.exp ((σ n c : EReal) - m') * (ν d n c : EReal)) :
    Carried σ ν (n + 1) m' l' acc' := by
  haveI : Nonempty (Fin B) := ⟨⟨0, hB⟩⟩
  obtain ⟨μ, rfl, rfl, hα⟩ := h
  obtain ⟨β, hβ⟩ := fold_max_coe Finset.univ Finset.univ_nonempty (σ n)
  have hm' : m' = ((max μ β : ℝ) : EReal) := by rw [hm, hβ, coe_max]
  refine ⟨max μ β, hm', ?_, fun d => ?_⟩
  · rw [hl, hm', exp_sub_coe, ← EReal.coe_mul, sum_exp_coe, ← EReal.coe_add, den_shift, den_succ]
  · rw [hacc d, hα d, hm', exp_sub_coe, ← EReal.coe_mul, sum_exp_mul_coe, ← EReal.coe_add, num_shift, num_succ]

/-- After at least one block, acc / l is the softmax-weighted average. -/
theorem carried_quotient (hB : 0 < B) (σ : ℕ → Fin B → ℝ) (ν : D → ℕ → Fin B → ℝ) {n : ℕ} (hn : 0 < n)
    {m l : EReal} {acc : D → EReal} (h : Carried σ ν n m l acc) (d : D) :
    Ideal.div (acc d) l = ((avg σ (ν d) n : ℝ) : EReal) := by
  obtain ⟨μ, -, rfl, hα⟩ := h
  rw [hα d, div_real _ (den_pos hB σ μ hn).ne', quot_shift]

/-! ## The direct computation over all columns at once -/

/-- The softmax-weighted average over a finite set of columns. -/
def flatAvg {J : Type*} [Fintype J] (s v : J → ℝ) : ℝ := (∑ k, Real.exp (s k) * v k) / (∑ k, Real.exp (s k))

/-- Normalizing the exponentials shifted by any real μ by their sum (taken from zero) and averaging the values against
    them gives that average. -/
theorem softmax_flat {J : Type*} [Fintype J] [Nonempty J] (s v : J → ℝ) (μ : ℝ) :
    (∑ k, Ideal.div (Ideal.exp ((s k : EReal) - (μ : EReal))) ((0 : EReal) + ∑ k', Ideal.exp ((s k' : EReal) - (μ : EReal)))
        * (v k : EReal)) = ((flatAvg s v : ℝ) : EReal) := by
  have hT : 0 < ∑ k : J, Real.exp (s k) := Finset.sum_pos (fun k _ => Real.exp_pos _) Finset.univ_nonempty
  have hZ : (∑ k : J, Real.exp (s k - μ)) = Real.exp (-μ) * ∑ k : J, Real.exp (s k) := by
    rw [Finset.mul_sum]
    refine Finset.sum_congr rfl fun k _ => ?_
    rw [← Real.exp_add]; congr 1; ring
  have hZ0 : (∑ k : J, Real.exp (s k - μ)) ≠ 0 := by
    rw [hZ]; exact (mul_pos (Real.exp_pos _) hT).ne'
  simp only [zero_add]
  rw [sum_exp_coe s μ, flatAvg, Finset.sum_div Finset.univ (fun k => Real.exp (s k) * v k),
    coe_sum Finset.univ (fun k => Real.exp (s k) * v k / ∑ k, Real.exp (s k))]
  refine Finset.sum_congr rfl fun k _ => ?_
  rw [exp_sub_coe, div_real _ hZ0, ← EReal.coe_mul]
  congr 1
  rw [hZ, show s k - μ = -μ + s k by ring, Real.exp_add]
  have := Real.exp_pos (-μ)
  field_simp

/-- A sum over columns numbered block by block is the sum over all the columns. -/
theorem sum_blocks {A N : ℕ} (hN : N = A * B) (G : Fin N → ℝ) (g : ℕ → Fin B → ℝ)
    (hg : ∀ (t : ℕ) (c : Fin B) (h : t * B + c.val < N), g t c = G ⟨t * B + c.val, h⟩) :
    ∑ t ∈ Finset.range A, ∑ c : Fin B, g t c = ∑ k : Fin N, G k := by
  subst hN
  rw [Finset.sum_range, ← Equiv.sum_comp finProdFinEquiv G, Fintype.sum_prod_type]
  refine Finset.sum_congr rfl fun t _ => Finset.sum_congr rfl fun c _ => ?_
  have h : t.val * B + c.val < A * B := by
    have := t.isLt; have := c.isLt
    calc t.val * B + c.val < t.val * B + B := by omega
      _ = (t.val + 1) * B := by ring
      _ ≤ A * B := Nat.mul_le_mul_right _ (by omega)
  rw [hg t.val c h]
  congr 1
  refine Fin.ext ?_
  show t.val * B + c.val = c.val + B * t.val
  ring

/-- The average accumulated over A blocks of B columns is the average over all N = A·B columns. -/
theorem avg_blocks {A N : ℕ} (hN : N = A * B) (s v : Fin N → ℝ) (σ ν : ℕ → Fin B → ℝ)
    (hσ : ∀ (t : ℕ) (c : Fin B) (h : t * B + c.val < N), σ t c = s ⟨t * B + c.val, h⟩)
    (hν : ∀ (t : ℕ) (c : Fin B) (h : t * B + c.val < N), ν t c = v ⟨t * B + c.val, h⟩) :
    avg σ ν A = flatAvg s v := by
  unfold avg flatAvg num den
  simp only [sub_zero]
  rw [sum_blocks hN (fun k => Real.exp (s k) * v k) (fun t c => Real.exp (σ t c) * ν t c)
      (fun t c h => by rw [hσ t c h, hν t c h]),
    sum_blocks hN (fun k => Real.exp (s k)) (fun t c => Real.exp (σ t c)) (fun t c h => by rw [hσ t c h])]

end Cert.OnlineSoftmax

end
-- ==== Proof.LibWords.lean ====
/-
  The float words both programs spell, as extended reals: one half, minus infinity, zero and plus infinity.
-/
import Idealize.ShloMosaic.PureOps.Ideal
import Idealize.ShloMosaic.PureOps.Ideal.Laws

noncomputable section

namespace Cert.Attention

open Idealize.ShloMosaic

theorem half_eq : Ideal.ofBits .f32 0x3F000000#32 = ((1 / 2 : ℝ) : EReal) := by
  simp [Ideal.ofBits, Ideal.ieee, -EReal.coe_mul]; norm_num
theorem negInf_eq : Ideal.ofBits .f32 0xFF800000#32 = (⊥ : EReal) := by
  simp [Ideal.ofBits, Ideal.ieee]
theorem zero_eq : Ideal.ofBits .f32 0x00000000#32 = (0 : EReal) := by
  simp [Ideal.ofBits, Ideal.ieee]
theorem posInf_eq : Ideal.ofBits .f32 0x7F800000#32 = (⊤ : EReal) := by
  simp [Ideal.ofBits, Ideal.ieee]

/-- A real number minus itself is zero (an infinity minus itself is not). -/
theorem sub_self_real (x : EReal) (h : ∃ a : ℝ, x = (a : EReal)) : x - x = 0 := by
  obtain ⟨a, rfl⟩ := h; rw [← EReal.coe_sub, sub_self]; rfl

end Cert.Attention

end
-- ==== Proof.LibRowReduce.lean ====
/-
  Rows of a matrix reduced along their entries, and a matrix read through its transpose.

  Over the extended reals a host sum of an [a, b] array along its second axis is, at row r, the initial value plus
  the plain sum over k of the entries (r, k).  A maximum along the second axis, whether taken by a lane reduction or
  by the host, is at row r the fold of max from the initial value over the entries (r, k), in any order.  The word
  of minus infinity is the least extended real, so taking a maximum with it changes nothing.  The transpose of a
  [b, a] matrix holds at (k, j) the matrix's entry (j, k).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ}

/-- The index of row r with the second coordinate k put back is (r, k). -/
theorem lift_row (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext ax
  refine Fin.ext ?_
  match ax with
  | ⟨0, _⟩ => rfl
  | ⟨1, _⟩ => rfl

/-- The host's sum of an [a, b] array along axis 1, at row r: the initial value plus the sum over k of the
    entries (r, k). -/
theorem hostRowSum_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  unfold Host.reduceAdd
  rw [Ideal.hostReduceAdd_def, Ideal.hostReduceAdd_single h' h]
  refine congrArg (_ + ·) (Finset.sum_congr rfl fun k _ => congrArg x ?_)
  exact lift_row h r k

/-- A lane maximum of an [a, b] f32 vector along axis 1, at row r: the fold of max from the accumulator's value over the
    entries (r, k). -/
theorem rowMax_apply (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) := by
  refine (Ideal.multiReduction_maximumf_single v acc h hφ hacc (ix1 r)).trans ?_
  refine congrArg (fun f => Finset.fold max (Ideal.ofBits .f32 acc) f (Finset.univ : Finset (Fin b))) ?_
  funext k
  exact congrArg v (lift_row h r k)

/-- The host's maximum of an [a, b] array along axis 1, at row r: the fold of max from the initial value over the
    entries (r, k). -/
theorem hostRowMax_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single (FloatOps.maximumf (F := Ideal) (φ := .f32)) x init h' h hu]
  refine congrArg (fun f => Finset.fold max (init (Shape.Idx.first hu)) f (Finset.univ : Finset (Fin b))) ?_
  funext k
  exact congrArg x (lift_row h r k)

/-- The f32 word of minus infinity is the least extended real: a maximum with it is the other operand. -/
theorem max_negInf_left (y : EReal) : max (Ideal.ofBits .f32 0xFF800000#32) y = y := by
  simp [Ideal.ofBits, Ideal.ieee]

/-- The transpose of a [b, a] matrix reads, at (k, j), the matrix's entry (j, k). -/
theorem transpose_swap_apply {α : Type} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) := by
  refine transpose_apply [1, 0] x h (ix2 k j) (ix2 j k) fun ax => ?_
  match ax with
  | ⟨0, _⟩ => rfl
  | ⟨1, _⟩ => rfl

end Cert.LibRowReduce

end
-- ==== Proof.Reference.lean ====
/-
  The reference, entry by entry, over the exact extended reals.

  The input is cut into three 4096 × 4096 matrices: queries, keys and values. The logit of query row i against key row j
  is half the sum over the 4096 features of query · key. The reference takes each row's largest logit, exponentiates the
  logits shifted by it, divides by the row's sum of those exponentials (taken from zero), and multiplies the resulting
  matrix of weights by the values: entry (i, d) of its result is the softmax-weighted average of column d of the values
  under row i of the logits. When every input entry is a real number so is every logit, and the average is the real one.
-/
import proofs.«117004_j86260123173325_2_alg».proof.Proof.Gen.ReferenceIdeal.Read
import proofs.«117004_j86260123173325_2_alg».proof.Proof.Gen.Pre_finite_inputs
import proofs.«117004_j86260123173325_2_alg».proof.Proof.LibOnlineSoftmax
import proofs.«117004_j86260123173325_2_alg».proof.Proof.LibWords
import proofs.«117004_j86260123173325_2_alg».proof.Proof.LibRowReduce
import Idealize.ShloMosaic.Lib.ReduceAll
import Idealize.ShloMosaic.Lib.ValueIdx

noncomputable section

open scoped BigOperators

namespace Cert.Attention

open Cert.ReferenceIdeal Cert.ReferenceIdeal.Gen Cert.ReferenceIdeal.Read Idealize.ShloMosaic Idealize.ShloMosaic.ValueIdx
open Cert.OnlineSoftmax

/-! ## Finite inputs -/

/-- Every entry of the input is a real number. -/
def Finite (X : FVec Ideal S4096x3x64x64 .f32) : Prop := ∀ idx, ∃ r : ℝ, X idx = (r : EReal)

theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- The precondition — every |x| below +∞ — says exactly that. -/
theorem finite_of_pre (X : FVec Ideal S4096x3x64x64 .f32)
    (h : Cert.Pre_finite_inputs.fn (F := Ideal) X = fun _ => 1#1) : Finite X := by
  intro idx
  have h0 := congrFun h ix0
  dsimp only [Cert.Pre_finite_inputs.fn] at h0
  have h1 := Host.reduce_andi_all _ _ _ _ ix0 h0 idx
  have h2 : Ideal.cmp .olt (max (X idx) (-(X idx))) (Ideal.ofBits .f32 0x7F800000#32) = 1#1 := h1
  rw [posInf_eq] at h2
  exact real_of_abs_lt_top _ h2

variable (X : FVec Ideal S4096x3x64x64 .f32)

/-- The queries, the keys and the values are entries of the input … -/
theorem query_real (hX : Finite X) (i : S4096x4096.Idx) : ∃ r : ℝ, val_main_v2 (F := Ideal) X i = (r : EReal) := by
  rw [val_main_v2_apply, val_main_v1_apply, val_main_v0_apply]; exact hX _
theorem key_real (hX : Finite X) (i : S4096x4096.Idx) : ∃ r : ℝ, val_main_v4 (F := Ideal) X i = (r : EReal) := by
  rw [val_main_v4_apply, val_main_v3_apply, val_main_v0_apply]; exact hX _
theorem value_real (hX : Finite X) (i : S4096x4096.Idx) : ∃ r : ℝ, val_main_v6 (F := Ideal) X i = (r : EReal) := by
  rw [val_main_v6_apply, val_main_v5_apply, val_main_v0_apply]; exact hX _

/-! ## Logits -/

/-- The logit of query row i against key row j. -/
def logit (i j : Fin 4096) : EReal :=
  (∑ q : Fin 4096, val_main_v2 (F := Ideal) X (ix2 i q) * val_main_v4 (F := Ideal) X (ix2 j q)) * Ideal.ofBits .f32 0x3F000000#32

theorem logit_real (hX : Finite X) (i j : Fin 4096) : ∃ r : ℝ, logit X i j = (r : EReal) := by
  choose qr hq using fun q : Fin 4096 => query_real X hX (ix2 i q)
  choose kr hk using fun q : Fin 4096 => key_real X hX (ix2 j q)
  refine ⟨(∑ q, qr q * kr q) * (1 / 2), ?_⟩
  unfold logit
  rw [half_eq, EReal.coe_mul, coe_sum]
  refine congrArg (· * (((1 / 2 : ℝ) : ℝ) : EReal)) ?_
  exact Finset.sum_congr rfl fun q _ => by rw [hq, hk, EReal.coe_mul]

/-- The logits and the values as real numbers. -/
def sR (i j : Fin 4096) : ℝ := (logit X i j).toReal
def wR (j d : Fin 4096) : ℝ := (val_main_v6 (F := Ideal) X (ix2 j d)).toReal

theorem logit_eq (hX : Finite X) (i j : Fin 4096) : logit X i j = ((sR X i j : ℝ) : EReal) := by
  obtain ⟨r, h⟩ := logit_real X hX i j; rw [sR, h, EReal.toReal_coe]
theorem value_eq (hX : Finite X) (j d : Fin 4096) : val_main_v6 (F := Ideal) X (ix2 j d) = ((wR X j d : ℝ) : EReal) := by
  obtain ⟨r, h⟩ := value_real X hX (ix2 j d); rw [wR, h, EReal.toReal_coe]

/-! ## The reference's stages at an entry -/

theorem scaled_apply (i k : Fin 4096) : val_main_v10 (F := Ideal) X (ix2 i k) = logit X i k := by
  rw [val_main_v10_apply, val_main_v8_apply, val_main_v9_apply, val_main_cst_apply]
  unfold logit
  show (∑ q : Fin 4096, val_main_v2 (F := Ideal) X (lidx_main_v8 (ix2 i k) q) * val_main_v7 (F := Ideal) X (ridx_main_v8 (ix2 i k) q))
      * Ideal.ofBits .f32 0x3F000000#32 = _
  refine congrArg (· * Ideal.ofBits .f32 0x3F000000#32) (Finset.sum_congr rfl fun q _ => ?_)
  rw [val_main_v7_apply]
  have e1 : lidx_main_v8 (ix2 i k) q = ix2 i q := funext fun a => Fin.ext (by
    match a with
    | ⟨0, _⟩ => rfl
    | ⟨1, _⟩ => rfl)
  have e2 : idx_main_v7 (ridx_main_v8 (ix2 i k) q) = ix2 k q := funext fun a => Fin.ext (by
    match a with
    | ⟨0, _⟩ => rfl
    | ⟨1, _⟩ => rfl)
  rw [e1, e2]

theorem rowmax_apply (i : Fin 4096) :
    val_main_v13 (F := Ideal) X (ix1 i)
      = max (⊥ : EReal) ((Finset.univ : Finset (Fin 4096)).fold max (⊥ : EReal) (fun k => logit X i k)) := by
  rw [val_main_v13_apply, val_main_v12_apply, val_main_cst_1_apply]
  have e : val_main_v11 (F := Ideal) X (ix1 i)
      = (Finset.univ : Finset (Fin 4096)).fold max (Ideal.ofBits .f32 0xFF800000#32) (fun k => val_main_v10 (F := Ideal) X (ix2 i k)) := by
    unfold val_main_v11
    exact Cert.LibRowReduce.hostRowMax_apply (val_main_v10 (F := Ideal) X) (val_main_cst_0 (F := Ideal))
      reducesTo_S4096x4096_S4096_d1 (by decide) h_S_ i
  rw [e]
  simp only [scaled_apply, Ideal.ofBits_def, Ideal.maximumf_def, negInf_eq]

theorem rowmax_real (hX : Finite X) (i : Fin 4096) : ∃ μ : ℝ, val_main_v13 (F := Ideal) X (ix1 i) = (μ : EReal) := by
  rw [rowmax_apply]
  simp only [logit_eq X hX]
  obtain ⟨β, hβ⟩ := fold_max_coe Finset.univ Finset.univ_nonempty (sR X i)
  exact ⟨β, by rw [hβ]; exact max_eq_right bot_le⟩

theorem exps_apply (i k : Fin 4096) :
    val_main_v17 (F := Ideal) X (ix2 i k) = Ideal.exp (logit X i k - val_main_v13 (F := Ideal) X (ix1 i)) := by
  rw [val_main_v17_apply, val_main_v16_apply, scaled_apply, val_main_v15_apply, val_main_v14_apply]
  have e : idx_main_v14 (idx_main_v15 (ix2 i k)) = ix1 i := funext fun a => Fin.ext (by
    match a with
    | ⟨0, _⟩ => rfl)
  rw [e]
  rfl

theorem rowsum_apply (i : Fin 4096) :
    val_main_v18 (F := Ideal) X (ix1 i) = (0 : EReal) + ∑ k : Fin 4096, val_main_v17 (F := Ideal) X (ix2 i k) := by
  rw [val_main_v18_apply, val_main_cst_2_apply, Ideal.ofBits_def, zero_eq]
  refine congrArg ((0 : EReal) + ·) (Finset.sum_congr rfl fun k _ => congrArg _ ?_)
  exact funext fun a => Fin.ext (by
    match a with
    | ⟨0, _⟩ => rfl
    | ⟨1, _⟩ => rfl)

theorem weights_apply (i k : Fin 4096) :
    val_main_v21 (F := Ideal) X (ix2 i k)
      = Ideal.div (val_main_v17 (F := Ideal) X (ix2 i k)) (val_main_v18 (F := Ideal) X (ix1 i)) := by
  rw [val_main_v21_apply, val_main_v20_apply, val_main_v19_apply]
  have e : idx_main_v19 (idx_main_v20 (ix2 i k)) = ix1 i := funext fun a => Fin.ext (by
    match a with
    | ⟨0, _⟩ => rfl)
  rw [e]
  rfl

/-- Entry (i, d) of the reference's result is the softmax-weighted average of column d of the values under row i of the
    logits. -/
theorem reference_apply (hX : Finite X) (i d : Fin 4096) :
    val_main_v22 (F := Ideal) X (ix2 i d) = ((flatAvg (sR X i) (fun k => wR X k d) : ℝ) : EReal) := by
  obtain ⟨μ, hμ⟩ := rowmax_real X hX i
  rw [val_main_v22_apply]
  have e : ∀ k : Fin 4096,
      val_main_v21 (F := Ideal) X (lidx_main_v22 (ix2 i d) k) * val_main_v6 (F := Ideal) X (ridx_main_v22 (ix2 i d) k)
        = Ideal.div (Ideal.exp ((sR X i k : EReal) - (μ : EReal)))
            ((0 : EReal) + ∑ k' : Fin 4096, Ideal.exp ((sR X i k' : EReal) - (μ : EReal))) * (wR X k d : EReal) := by
    intro k
    have e1 : lidx_main_v22 (ix2 i d) k = ix2 i k := funext fun a => Fin.ext (by
      match a with
      | ⟨0, _⟩ => rfl
      | ⟨1, _⟩ => rfl)
    have e2 : ridx_main_v22 (ix2 i d) k = ix2 k d := funext fun a => Fin.ext (by
      match a with
      | ⟨0, _⟩ => rfl
      | ⟨1, _⟩ => rfl)
    rw [e1, e2, weights_apply, rowsum_apply, value_eq X hX]
    simp only [exps_apply, logit_eq X hX, hμ]
  rw [Finset.sum_congr rfl fun k _ => e k]
  exact softmax_flat (sR X i) (fun k => wR X k d) μ

/-! ## The columns block by block -/

/-- Row i of the logits, cut into sixteen blocks of 256 columns … -/
def blockLogit (i : Fin 4096) : ℕ → Fin 256 → ℝ :=
  fun t cc => if h : t * 256 + cc.val < 4096 then sR X i ⟨t * 256 + cc.val, h⟩ else 0

/-- … and column d of the values, cut the same way. -/
def blockValue (d : Fin 4096) : ℕ → Fin 256 → ℝ :=
  fun t cc => if h : t * 256 + cc.val < 4096 then wR X ⟨t * 256 + cc.val, h⟩ d else 0

theorem blockLogit_eq (i : Fin 4096) (t : ℕ) (cc : Fin 256) (j : Fin 4096) (hj : j.val = t * 256 + cc.val) :
    blockLogit X i t cc = sR X i j := by
  have h : t * 256 + cc.val < 4096 := hj ▸ j.isLt
  unfold blockLogit
  rw [dif_pos h]
  exact congrArg (sR X i) (Fin.ext hj.symm)

theorem blockValue_eq (d : Fin 4096) (t : ℕ) (cc : Fin 256) (j : Fin 4096) (hj : j.val = t * 256 + cc.val) :
    blockValue X d t cc = wR X j d := by
  have h : t * 256 + cc.val < 4096 := hj ▸ j.isLt
  unfold blockValue
  rw [dif_pos h]
  exact congrArg (fun k => wR X k d) (Fin.ext hj.symm)

/-- The average accumulated over the sixteen blocks is the average over the whole row. -/
theorem avg_blocks_eq (i d : Fin 4096) :
    avg (blockLogit X i) (blockValue X d) 16 = flatAvg (sR X i) (fun k => wR X k d) :=
  avg_blocks (by norm_num) (sR X i) (fun k => wR X k d) (blockLogit X i) (blockValue X d)
    (fun t cc h => blockLogit_eq X i t cc ⟨t * 256 + cc.val, h⟩ rfl)
    (fun t cc h => blockValue_eq X d t cc ⟨t * 256 + cc.val, h⟩ rfl)

end Cert.Attention

end
-- ==== Proof.Pieces.lean ====
/-
  What each grid step leaves in the three carried buffers and in the output block, as the step's values.

  A step in the middle of a row block (and the last one) reads the carried maxima, denominators and accumulator, and
  stores the new maximum, the new denominator and the new accumulator; the last step also stores accumulator /
  denominator, of the values it has just stored, into the output block. The first step of a row block first fills the
  three buffers with -∞, 0 and 0 and then does the same from those.
-/
import proofs.«117004_j86260123173325_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

theorem first_max (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (hc0 : cond0_0 i) (hc1 : ¬cond0_1 i) (x0 x1 : Vec F S512x4096 .bf16) (x2 x3 x4 : Vec F S256x4096 .bf16) :
    sout0_A_0 c i arg2 harg2 arg3 harg3 arg4 harg4 arg5 harg5 arg6 harg6 arg7 harg7 arg8 harg8 arg9 harg9 arg10 harg10 hc0 hc1 x0 x1 x2 x3 x4
      = k0_pay3 (k0_pay9 x0 x1 x2 x3 k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x1) hz, View.readCov_unit_zero (S := S512x1) arg8.view hz]
  simp only [View.readAt_eq_ld, harg2.read_unread, harg3.read_unread, harg4.read_unread, harg5.read_unread, harg6.read_unread, harg8.read_unread, harg9.read_unread, harg10.read_unread, View.ld_unit_zero (S := S512x4096) hz, View.ld_unit_zero (S := S256x4096) hz, View.ld_unit_zero (S := S512x1) hz]

theorem first_den (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (hc0 : cond0_0 i) (hc1 : ¬cond0_1 i) (x0 x1 : Vec F S512x4096 .bf16) (x2 x3 x4 : Vec F S256x4096 .bf16) :
    sout0_A_1 c i arg2 harg2 arg3 harg3 arg4 harg4 arg5 harg5 arg6 harg6 arg7 harg7 arg8 harg8 arg9 harg9 arg10 harg10 hc0 hc1 x0 x1 x2 x3 x4
      = k0_pay1 (k0_pay12 x0 x1 x2 x3 k0_pay5 k0_pay5 k0_pay6) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x1) hz, View.readCov_unit_zero (S := S512x1) arg8.view hz, View.readCov_unit_zero (S := S512x1) arg9.view hz]
  simp only [View.readAt_eq_ld, harg2.read_unread, harg3.read_unread, harg4.read_unread, harg5.read_unread, harg6.read_unread, harg8.read_unread, harg9.read_unread, harg10.read_unread, View.ld_unit_zero (S := S512x4096) hz, View.ld_unit_zero (S := S256x4096) hz, View.ld_unit_zero (S := S512x1) hz]

theorem first_acc (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (hc0 : cond0_0 i) (hc1 : ¬cond0_1 i) (x0 x1 : Vec F S512x4096 .bf16) (x2 x3 x4 : Vec F S256x4096 .bf16) :
    sout0_A_2 c i arg2 harg2 arg3 harg3 arg4 harg4 arg5 harg5 arg6 harg6 arg7 harg7 arg8 harg8 arg9 harg9 arg10 harg10 hc0 hc1 x0 x1 x2 x3 x4
      = k0_pay2 (k0_pay10 x0 x1 x2 x3 k0_pay5 k0_pay5) (k0_pay11 x0 x1 x2 x3 k0_pay5) x4 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x4096) hz, View.readCov_unit_zero (S := S512x1) arg8.view hz, View.readCov_unit_zero (S := S512x4096) arg10.view hz]
  simp only [View.readAt_eq_ld, harg2.read_unread, harg3.read_unread, harg4.read_unread, harg5.read_unread, harg6.read_unread, harg8.read_unread, harg9.read_unread, harg10.read_unread, View.ld_unit_zero (S := S512x4096) hz, View.ld_unit_zero (S := S256x4096) hz, View.ld_unit_zero (S := S512x1) hz]

theorem mid_max (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (hc0 : ¬cond0_0 i) (hc1 : ¬cond0_1 i) (x0 x1 : Vec F S512x4096 .bf16) (x2 x3 x4 : Vec F S256x4096 .bf16) (xs0 xs1 : Vec F S512x1 .f32) (xs2 : Vec F S512x4096 .f32) :
    sout0_B_0 c i arg2 harg2 arg3 harg3 arg4 harg4 arg5 harg5 arg6 harg6 arg7 harg7 arg8 harg8 arg9 harg9 arg10 harg10 hc0 hc1 x0 x1 x2 x3 x4 xs0 xs1 xs2
      = k0_pay3 (k0_pay9 x0 x1 x2 x3 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, View.ld_unit_zero (S := S512x4096) hz, View.ld_unit_zero (S := S256x4096) hz, View.ld_unit_zero (S := S512x1) hz]

theorem mid_den (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (hc0 : ¬cond0_0 i) (hc1 : ¬cond0_1 i) (x0 x1 : Vec F S512x4096 .bf16) (x2 x3 x4 : Vec F S256x4096 .bf16) (xs0 xs1 : Vec F S512x1 .f32) (xs2 : Vec F S512x4096 .f32) :
    sout0_B_1 c i arg2 harg2 arg3 harg3 arg4 harg4 arg5 harg5 arg6 harg6 arg7 harg7 arg8 harg8 arg9 harg9 arg10 harg10 hc0 hc1 x0 x1 x2 x3 x4 xs0 xs1 xs2
      = k0_pay1 (k0_pay12 x0 x1 x2 x3 xs0 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, View.ld_unit_zero (S := S512x4096) hz, View.ld_unit_zero (S := S256x4096) hz, View.ld_unit_zero (S := S512x1) hz]

theorem mid_acc (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (hc0 : ¬cond0_0 i) (hc1 : ¬cond0_1 i) (x0 x1 : Vec F S512x4096 .bf16) (x2 x3 x4 : Vec F S256x4096 .bf16) (xs0 xs1 : Vec F S512x1 .f32) (xs2 : Vec F S512x4096 .f32) :
    sout0_B_2 c i arg2 harg2 arg3 harg3 arg4 harg4 arg5 harg5 arg6 harg6 arg7 harg7 arg8 harg8 arg9 harg9 arg10 harg10 hc0 hc1 x0 x1 x2 x3 x4 xs0 xs1 xs2
      = k0_pay2 (k0_pay10 x0 x1 x2 x3 xs0 xs0) (k0_pay11 x0 x1 x2 x3 xs0) x4 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, View.ld_unit_zero (S := S512x4096) hz, View.ld_unit_zero (S := S256x4096) hz, View.ld_unit_zero (S := S512x1) hz]

theorem last_max (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (hc0 : ¬cond0_0 i) (hc1 : cond0_1 i) (x0 x1 : Vec F S512x4096 .bf16) (x2 x3 x4 : Vec F S256x4096 .bf16) (xs0 xs1 : Vec F S512x1 .f32) (xs2 : Vec F S512x4096 .f32) :
    sout0_C_0 c i arg2 harg2 arg3 harg3 arg4 harg4 arg5 harg5 arg6 harg6 arg7 harg7 arg8 harg8 arg9 harg9 arg10 harg10 hc0 hc1 x0 x1 x2 x3 x4 xs0 xs1 xs2
      = k0_pay3 (k0_pay9 x0 x1 x2 x3 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, View.ld_unit_zero (S := S512x4096) hz, View.ld_unit_zero (S := S256x4096) hz, View.ld_unit_zero (S := S512x1) hz]

theorem last_den (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (hc0 : ¬cond0_0 i) (hc1 : cond0_1 i) (x0 x1 : Vec F S512x4096 .bf16) (x2 x3 x4 : Vec F S256x4096 .bf16) (xs0 xs1 : Vec F S512x1 .f32) (xs2 : Vec F S512x4096 .f32) :
    sout0_C_1 c i arg2 harg2 arg3 harg3 arg4 harg4 arg5 harg5 arg6 harg6 arg7 harg7 arg8 harg8 arg9 harg9 arg10 harg10 hc0 hc1 x0 x1 x2 x3 x4 xs0 xs1 xs2
      = k0_pay1 (k0_pay12 x0 x1 x2 x3 xs0 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, View.ld_unit_zero (S := S512x4096) hz, View.ld_unit_zero (S := S256x4096) hz, View.ld_unit_zero (S := S512x1) hz]

theorem last_acc (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (hc0 : ¬cond0_0 i) (hc1 : cond0_1 i) (x0 x1 : Vec F S512x4096 .bf16) (x2 x3 x4 : Vec F S256x4096 .bf16) (xs0 xs1 : Vec F S512x1 .f32) (xs2 : Vec F S512x4096 .f32) :
    sout0_C_2 c i arg2 harg2 arg3 harg3 arg4 harg4 arg5 harg5 arg6 harg6 arg7 harg7 arg8 harg8 arg9 harg9 arg10 harg10 hc0 hc1 x0 x1 x2 x3 x4 xs0 xs1 xs2
      = k0_pay2 (k0_pay10 x0 x1 x2 x3 xs0 xs0) (k0_pay11 x0 x1 x2 x3 xs0) x4 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, View.ld_unit_zero (S := S512x4096) hz, View.ld_unit_zero (S := S256x4096) hz, View.ld_unit_zero (S := S512x1) hz]

theorem last_out (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (hc0 : ¬cond0_0 i) (hc1 : cond0_1 i) (x0 x1 : Vec F S512x4096 .bf16) (x2 x3 x4 : Vec F S256x4096 .bf16) (xs0 xs1 : Vec F S512x1 .f32) (xs2 : Vec F S512x4096 .f32) :
    out0_C_5 c i arg2 harg2 arg3 harg3 arg4 harg4 arg5 harg5 arg6 harg6 arg7 harg7 arg8 harg8 arg9 harg9 arg10 harg10 hc0 hc1 x0 x1 x2 x3 x4 xs0 xs1 xs2
      = k0_pay4 (k0_pay2 (k0_pay10 x0 x1 x2 x3 xs0 xs0) (k0_pay11 x0 x1 x2 x3 xs0) x4 xs2) (k0_pay1 (k0_pay12 x0 x1 x2 x3 xs0 xs0 xs1)) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  rw [View.readCov_unit_zero (S := S512x4096) arg10.view hz, View.readCov_unit_zero (S := S512x1) arg9.view hz]
  simp only [View.readAt_eq_ld, harg2.read_unread, harg3.read_unread, harg4.read_unread, harg5.read_unread, harg6.read_unread, harg8.read_unread, harg9.read_unread, harg10.read_unread, View.ld_unit_zero (S := S512x4096) hz, View.ld_unit_zero (S := S256x4096) hz, View.ld_unit_zero (S := S512x1) hz]

end Cert.KernelIdeal.Pieces

end
-- ==== Proof.ScratchFirst.lean ====
/-
  What the three carried buffers and the output block hold after a grid point, as the step's values of the point's
  windows and of what the point before left.
-/
import proofs.«117004_j86260123173325_2_alg».proof.Proof.Gen.KernelIdeal.Value
import proofs.«117004_j86260123173325_2_alg».proof.Proof.Pieces
import Idealize.ShloMosaic.PureOps.Ideal

noncomputable section

namespace Cert.KernelIdeal.Scratch

open Cert.KernelIdeal Cert.KernelIdeal.Gen Cert.KernelIdeal.Pieces
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The carried buffers after a point, as the step's values -/

set_option maxHeartbeats 3000000 in
/-- The running maxima after the first point of a row block. -/
theorem first_max_at (t : Fin cfg0.N) (h0 : t.val % 16 = 0) (h1 : ¬t.val % 16 = 15) :
    (outsAt0 m c t.val t.isLt).2.1 = k0_pay3 (F := Ideal) (k0_pay9 (F := Ideal) (iblk m c 0 t) (iblk m c 1 t) (iblk m c 2 t) (iblk m c 3 t) (k0_pay5 (F := Ideal))) := by
  have h := congrArg (fun p => p.2.1) (outsAt0_A m c t h0 h1)
  dsimp only at h
  exact h.trans (first_max c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t))

set_option maxHeartbeats 3000000 in
/-- The running denominators after the first point of a row block. -/
theorem first_den_at (t : Fin cfg0.N) (h0 : t.val % 16 = 0) (h1 : ¬t.val % 16 = 15) :
    (outsAt0 m c t.val t.isLt).2.2.1 = k0_pay1 (F := Ideal) (k0_pay12 (F := Ideal) (iblk m c 0 t) (iblk m c 1 t) (iblk m c 2 t) (iblk m c 3 t) (k0_pay5 (F := Ideal)) (k0_pay5 (F := Ideal)) (k0_pay6 (F := Ideal))) := by
  have h := congrArg (fun p => p.2.2.1) (outsAt0_A m c t h0 h1)
  dsimp only at h
  exact h.trans (first_den c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t))

set_option maxHeartbeats 3000000 in
/-- The accumulator after the first point of a row block. -/
theorem first_acc_at (t : Fin cfg0.N) (h0 : t.val % 16 = 0) (h1 : ¬t.val % 16 = 15) :
    (outsAt0 m c t.val t.isLt).2.2.2 = k0_pay2 (F := Ideal) (k0_pay10 (F := Ideal) (iblk m c 0 t) (iblk m c 1 t) (iblk m c 2 t) (iblk m c 3 t) (k0_pay5 (F := Ideal)) (k0_pay5 (F := Ideal))) (k0_pay11 (F := Ideal) (iblk m c 0 t) (iblk m c 1 t) (iblk m c 2 t) (iblk m c 3 t) (k0_pay5 (F := Ideal))) (iblk m c 4 t) (k0_pay7 (F := Ideal)) := by
  have h := congrArg (fun p => p.2.2.2) (outsAt0_A m c t h0 h1)
  dsimp only at h
  exact h.trans (first_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t))

end Cert.KernelIdeal.Scratch

end
-- ==== Proof.ScratchMid.lean ====
/-
  What the three carried buffers and the output block hold after a grid point, as the step's values of the point's
  windows and of what the point before left.
-/
import proofs.«117004_j86260123173325_2_alg».proof.Proof.Gen.KernelIdeal.Value
import proofs.«117004_j86260123173325_2_alg».proof.Proof.Pieces
import Idealize.ShloMosaic.PureOps.Ideal

noncomputable section

namespace Cert.KernelIdeal.Scratch

open Cert.KernelIdeal Cert.KernelIdeal.Gen Cert.KernelIdeal.Pieces
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The carried buffers after a point, as the step's values -/

set_option maxHeartbeats 3000000 in
/-- The running maxima after a point in the middle of a row block. -/
theorem mid_max_at (t : Fin cfg0.N) (h0 : ¬t.val % 16 = 0) (h1 : ¬t.val % 16 = 15) :
    (outsAt0 m c t.val t.isLt).2.1 = k0_pay3 (F := Ideal) (k0_pay9 (F := Ideal) (iblk m c 0 t) (iblk m c 1 t) (iblk m c 2 t) (iblk m c 3 t) (outsAt0 m c (t.val - 1) (Nat.lt_of_le_of_lt (Nat.sub_le _ _) t.isLt)).2.1) := by
  have h := congrArg (fun p => p.2.1) (outsAt0_B m c t h0 h1)
  dsimp only at h
  exact h.trans (mid_max c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 3000000 in
/-- The running denominators after a point in the middle of a row block. -/
theorem mid_den_at (t : Fin cfg0.N) (h0 : ¬t.val % 16 = 0) (h1 : ¬t.val % 16 = 15) :
    (outsAt0 m c t.val t.isLt).2.2.1 = k0_pay1 (F := Ideal) (k0_pay12 (F := Ideal) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1) := by
  have h := congrArg (fun p => p.2.2.1) (outsAt0_B m c t h0 h1)
  dsimp only at h
  exact h.trans (mid_den c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 3000000 in
/-- The accumulator after a point in the middle of a row block. -/
theorem mid_acc_at (t : Fin cfg0.N) (h0 : ¬t.val % 16 = 0) (h1 : ¬t.val % 16 = 15) :
    (outsAt0 m c t.val t.isLt).2.2.2 = k0_pay2 (F := Ideal) (k0_pay10 (F := Ideal) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.1) (k0_pay11 (F := Ideal) (iblk m c 0 t) (iblk m c 1 t) (iblk m c 2 t) (iblk m c 3 t) (outsAt0 m c (t.val - 1) (Nat.lt_of_le_of_lt (Nat.sub_le _ _) t.isLt)).2.1) (iblk m c 4 t) (outsAt0 m c (t.val - 1) (Nat.lt_of_le_of_lt (Nat.sub_le _ _) t.isLt)).2.2.2 := by
  have h := congrArg (fun p => p.2.2.2) (outsAt0_B m c t h0 h1)
  dsimp only at h
  exact h.trans (mid_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

end Cert.KernelIdeal.Scratch

end
-- ==== Proof.ScratchLast.lean ====
/-
  What the three carried buffers and the output block hold after a grid point, as the step's values of the point's
  windows and of what the point before left.
-/
import proofs.«117004_j86260123173325_2_alg».proof.Proof.Gen.KernelIdeal.Value
import proofs.«117004_j86260123173325_2_alg».proof.Proof.Pieces
import Idealize.ShloMosaic.PureOps.Ideal

noncomputable section

namespace Cert.KernelIdeal.Scratch

open Cert.KernelIdeal Cert.KernelIdeal.Gen Cert.KernelIdeal.Pieces
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The carried buffers after a point, as the step's values -/

set_option maxHeartbeats 3000000 in
/-- The running maxima after the last point of a row block. -/
theorem last_max_at (t : Fin cfg0.N) (h0 : ¬t.val % 16 = 0) (h1 : t.val % 16 = 15) :
    (outsAt0 m c t.val t.isLt).2.1 = k0_pay3 (F := Ideal) (k0_pay9 (F := Ideal) (iblk m c 0 t) (iblk m c 1 t) (iblk m c 2 t) (iblk m c 3 t) (outsAt0 m c (t.val - 1) (Nat.lt_of_le_of_lt (Nat.sub_le _ _) t.isLt)).2.1) := by
  have h := congrArg (fun p => p.2.1) (outsAt0_C m c t h0 h1)
  dsimp only at h
  exact h.trans (last_max c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 3000000 in
/-- The running denominators after the last point of a row block. -/
theorem last_den_at (t : Fin cfg0.N) (h0 : ¬t.val % 16 = 0) (h1 : t.val % 16 = 15) :
    (outsAt0 m c t.val t.isLt).2.2.1 = k0_pay1 (F := Ideal) (k0_pay12 (F := Ideal) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1) := by
  have h := congrArg (fun p => p.2.2.1) (outsAt0_C m c t h0 h1)
  dsimp only at h
  exact h.trans (last_den c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 3000000 in
/-- The accumulator after the last point of a row block. -/
theorem last_acc_at (t : Fin cfg0.N) (h0 : ¬t.val % 16 = 0) (h1 : t.val % 16 = 15) :
    (outsAt0 m c t.val t.isLt).2.2.2 = k0_pay2 (F := Ideal) (k0_pay10 (F := Ideal) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.1) (k0_pay11 (F := Ideal) (iblk m c 0 t) (iblk m c 1 t) (iblk m c 2 t) (iblk m c 3 t) (outsAt0 m c (t.val - 1) (Nat.lt_of_le_of_lt (Nat.sub_le _ _) t.isLt)).2.1) (iblk m c 4 t) (outsAt0 m c (t.val - 1) (Nat.lt_of_le_of_lt (Nat.sub_le _ _) t.isLt)).2.2.2 := by
  have h := congrArg (fun p => p.2.2.2) (outsAt0_C m c t h0 h1)
  dsimp only at h
  exact h.trans (last_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 3000000 in
/-- The output block after the last point of a row block. -/
theorem last_out_at (t : Fin cfg0.N) (h0 : ¬t.val % 16 = 0) (h1 : t.val % 16 = 15) :
    (outsAt0 m c t.val t.isLt).1 = k0_pay4 (F := Ideal) (k0_pay2 (F := Ideal) (k0_pay10 (F := Ideal) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.1) (k0_pay11 (F := Ideal) (iblk m c 0 t) (iblk m c 1 t) (iblk m c 2 t) (iblk m c 3 t) (outsAt0 m c (t.val - 1) (Nat.lt_of_le_of_lt (Nat.sub_le _ _) t.isLt)).2.1) (iblk m c 4 t) (outsAt0 m c (t.val - 1) (Nat.lt_of_le_of_lt (Nat.sub_le _ _) t.isLt)).2.2.2) (k0_pay1 (F := Ideal) (k0_pay12 (F := Ideal) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1)) := by
  have h := congrArg (fun p => p.1) (outsAt0_C m c t h0 h1)
  dsimp only at h
  exact h.trans (last_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

end Cert.KernelIdeal.Scratch

end
-- ==== Proof.Inputs.lean ====
/-
  What the kernel's five windows hold at a grid point.

  Before the kernel runs, the host cuts the input into queries, keys and values exactly as the reference does, and hands
  the kernel five arrays: the queries, the queries minus themselves, the keys, the keys minus themselves, and the values
  (a change of float format is the identity here). Grid point t is the pair (t / 16, t % 16): the query windows hold the
  512 query rows from 512·(t / 16) on, the key and value windows the 256 rows from 256·(t % 16) on.
-/
import proofs.«117004_j86260123173325_2_alg».proof.Proof.Gen.KernelIdeal.Frame
import proofs.«117004_j86260123173325_2_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Inputs

open Cert.KernelIdeal Cert.KernelIdeal.Gen Idealize.ShloMosaic Idealize.ShloMosaic.TcCoe Idealize.SL.Sem
open Idealize.ShloMosaic.ValueIdx Idealize.ShloMosaic.StableHlo
open Cert.ReferenceIdeal.Read (val_main_v2 val_main_v4 val_main_v6)

variable (m : (ℓ : Loc nD τ sig) → Buf (Elt Ideal) ℓ)

/-- The input array as launched. -/
abbrev argX (c : Dev nD) : FVec Ideal Cert.ReferenceIdeal.S4096x3x64x64 .f32 := m ((c : Thread nD τ).loc main_arg0)

/-! ## The five arrays the host hands the kernel -/

theorem V_main_v7 (c : Dev nD) : (V m c main_v7 : S4096x4096.Idx → EReal) = val_main_v2 (F := Ideal) (argX m c) := by
  dsimp only [V, hostOps0]; after_results; rfl

theorem V_main_v10 (c : Dev nD) : (V m c main_v10 : S4096x4096.Idx → EReal)
    = fun i => val_main_v2 (F := Ideal) (argX m c) i - val_main_v2 (F := Ideal) (argX m c) i := by
  dsimp only [V, hostOps0]; after_results; rfl

theorem V_main_v11 (c : Dev nD) : (V m c main_v11 : S4096x4096.Idx → EReal) = val_main_v4 (F := Ideal) (argX m c) := by
  dsimp only [V, hostOps0]; after_results; rfl

theorem V_main_v14 (c : Dev nD) : (V m c main_v14 : S4096x4096.Idx → EReal)
    = fun i => val_main_v4 (F := Ideal) (argX m c) i - val_main_v4 (F := Ideal) (argX m c) i := by
  dsimp only [V, hostOps0]; after_results; rfl

theorem V_main_v15 (c : Dev nD) : (V m c main_v15 : S4096x4096.Idx → EReal) = val_main_v6 (F := Ideal) (argX m c) := by
  dsimp only [V, hostOps0]; after_results; rfl

/-! ## Which rows a window holds at a point -/

/-- The block indices of the six windows at point t, decided over the grid. -/
theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = t.val % 16 ∧ win0_2.index t (1 : Fin 2) = 0
    ∧ win0_3.index t (0 : Fin 2) = t.val % 16 ∧ win0_3.index t (1 : Fin 2) = 0
    ∧ win0_4.index t (0 : Fin 2) = t.val % 16 ∧ win0_4.index t (1 : Fin 2) = 0
    ∧ win0_5.index t (0 : Fin 2) = t.val / 16 ∧ win0_5.index t (1 : Fin 2) = 0 ∧ True :=
  (by decide +kernel : ∀ t : Fin grid0.N, _)

/-- The query window at (r, q) is the query entry (512·(t / 16) + r, q). -/
theorem query_block (c : Dev nD) (t : Fin cfg0.N) (r : Fin 512) (q : Fin 4096) (i : Fin 4096) (hi : i.val = 512 * (t.val / 16) + r.val) :
    (iblk m c 0 t : Vec Ideal S512x4096 .bf16) (ix2 r q) = val_main_v2 (F := Ideal) (argX m c) (ix2 i q) := by
  unfold iblk
  rw [View.read_apply]
  show (V m c main_v7 : S4096x4096.Idx → EReal) _ = _
  rw [V_main_v7]
  have e : ((cfg0.win 0).blk t).view.emb (ix2 r q) = ix2 i q := by
    funext a; apply Fin.ext
    have f := idx_facts t
    match a with
    | ⟨0, _⟩ => show win0_0.index t (0 : Fin 2) * 512 + 1 * r.val = i.val; rw [f.1, hi]; omega
    | ⟨1, _⟩ => show win0_0.index t (1 : Fin 2) * 4096 + 1 * q.val = q.val; rw [f.2.1]; omega
  rw [e]

/-- The low query window holds that entry minus itself. -/
theorem querylo_block (c : Dev nD) (t : Fin cfg0.N) (r : Fin 512) (q : Fin 4096) (i : Fin 4096) (hi : i.val = 512 * (t.val / 16) + r.val) :
    (iblk m c 1 t : Vec Ideal S512x4096 .bf16) (ix2 r q) = val_main_v2 (F := Ideal) (argX m c) (ix2 i q) - val_main_v2 (F := Ideal) (argX m c) (ix2 i q) := by
  unfold iblk
  rw [View.read_apply]
  show (V m c main_v10 : S4096x4096.Idx → EReal) _ = _
  rw [V_main_v10]
  have e : ((cfg0.win 1).blk t).view.emb (ix2 r q) = ix2 i q := by
    funext a; apply Fin.ext
    have f := idx_facts t
    match a with
    | ⟨0, _⟩ => show win0_1.index t (0 : Fin 2) * 512 + 1 * r.val = i.val; rw [f.2.2.1, hi]; omega
    | ⟨1, _⟩ => show win0_1.index t (1 : Fin 2) * 4096 + 1 * q.val = q.val; rw [f.2.2.2.1]; omega
  rw [e]

/-- The key window at (r, q) is the key entry (256·(t % 16) + r, q). -/
theorem key_block (c : Dev nD) (t : Fin cfg0.N) (r : Fin 256) (q : Fin 4096) (i : Fin 4096) (hi : i.val = 256 * (t.val % 16) + r.val) :
    (iblk m c 2 t : Vec Ideal S256x4096 .bf16) (ix2 r q) = val_main_v4 (F := Ideal) (argX m c) (ix2 i q) := by
  unfold iblk
  rw [View.read_apply]
  show (V m c main_v11 : S4096x4096.Idx → EReal) _ = _
  rw [V_main_v11]
  have e : ((cfg0.win 2).blk t).view.emb (ix2 r q) = ix2 i q := by
    funext a; apply Fin.ext
    have f := idx_facts t
    match a with
    | ⟨0, _⟩ => show win0_2.index t (0 : Fin 2) * 256 + 1 * r.val = i.val; rw [f.2.2.2.2.1, hi]; omega
    | ⟨1, _⟩ => show win0_2.index t (1 : Fin 2) * 4096 + 1 * q.val = q.val; rw [f.2.2.2.2.2.1]; omega
  rw [e]

/-- The low key window holds that entry minus itself. -/
theorem keylo_block (c : Dev nD) (t : Fin cfg0.N) (r : Fin 256) (q : Fin 4096) (i : Fin 4096) (hi : i.val = 256 * (t.val % 16) + r.val) :
    (iblk m c 3 t : Vec Ideal S256x4096 .bf16) (ix2 r q) = val_main_v4 (F := Ideal) (argX m c) (ix2 i q) - val_main_v4 (F := Ideal) (argX m c) (ix2 i q) := by
  unfold iblk
  rw [View.read_apply]
  show (V m c main_v14 : S4096x4096.Idx → EReal) _ = _
  rw [V_main_v14]
  have e : ((cfg0.win 3).blk t).view.emb (ix2 r q) = ix2 i q := by
    funext a; apply Fin.ext
    have f := idx_facts t
    match a with
    | ⟨0, _⟩ => show win0_3.index t (0 : Fin 2) * 256 + 1 * r.val = i.val; rw [f.2.2.2.2.2.2.1, hi]; omega
    | ⟨1, _⟩ => show win0_3.index t (1 : Fin 2) * 4096 + 1 * q.val = q.val; rw [f.2.2.2.2.2.2.2.1]; omega
  rw [e]

/-- The value window at (r, q) is the value entry (256·(t % 16) + r, q). -/
theorem value_block (c : Dev nD) (t : Fin cfg0.N) (r : Fin 256) (q : Fin 4096) (i : Fin 4096) (hi : i.val = 256 * (t.val % 16) + r.val) :
    (iblk m c 4 t : Vec Ideal S256x4096 .bf16) (ix2 r q) = val_main_v6 (F := Ideal) (argX m c) (ix2 i q) := by
  unfold iblk
  rw [View.read_apply]
  show (V m c main_v15 : S4096x4096.Idx → EReal) _ = _
  rw [V_main_v15]
  have e : ((cfg0.win 4).blk t).view.emb (ix2 r q) = ix2 i q := by
    funext a; apply Fin.ext
    have f := idx_facts t
    match a with
    | ⟨0, _⟩ => show win0_4.index t (0 : Fin 2) * 256 + 1 * r.val = i.val; rw [f.2.2.2.2.2.2.2.2.1, hi]; omega
    | ⟨1, _⟩ => show win0_4.index t (1 : Fin 2) * 4096 + 1 * q.val = q.val; rw [f.2.2.2.2.2.2.2.2.2.1]; omega
  rw [e]

end Cert.KernelIdeal.Inputs

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibGemmNT.lean ====
/-
  A matrix product against a transposed right operand, read at an entry; and an array whose middle axis is
  split in two, read at an index.

  When the dimension numbers contract the columns of the left operand [n, k] against the columns of the right
  operand [d, k] — the product A · Bᵀ, no batch axis — the contraction index is its one coordinate, and the sum
  over it of the operands' products at entry (p, c) is ∑ q, lhs (p, q) · rhs (c, q).  Read at the exact extended
  reals, a matrix-unit product into a zero accumulator and a host dot_general are both that sum, whatever
  their precision or schedule.

  A reshape keeps every element's row-major position: an [e, n, r] array with n = a · b, viewed as [e, a, b, r],
  holds at (i, p, s, j) the entry (i, p · b + s, j).
-/
import Idealize.ShloMosaic.Lib.Pipeline.Value
import Idealize.ShloMosaic.Lib.ValueIdx
import Idealize.ShloMosaic.PureOps.Ideal.Laws

noncomputable section

open scoped BigOperators

namespace Cert.LibGemmNT

open Idealize.ShloMosaic Idealize.ShloMosaic.ValueIdx

variable {n k d : ℕ}

/-- The sum over a one-axis contraction index, re-indexed by the axis's coordinate, for a product whose operand
    indices at output (p, c) and contraction coordinate q are (p, q) and (c, q). -/
theorem sum_contr_eq {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (lhs : FVec Ideal ⟨2, ![n, k]⟩ φ₁) (rhs : FVec Ideal ⟨2, ![d, k]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 c q) := by
  rw [← Equiv.sum_comp (contrEquiv1 D k hr hs).symm]
  refine Finset.sum_congr rfl fun q _ => ?_
  have hq := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hq)
  have er : D.rhsIdx (ix2 p c) ((contrEquiv1 D k hr hs).symm q) = ix2 c q := funext fun a => Fin.ext (by
    match a with
    | ⟨0, _⟩ => exact hr0 _ _
    | ⟨1, _⟩ => exact (hr1 _ _).trans hq)
  rw [el, er]

/-- A matrix-unit product A · Bᵀ into the zero accumulator, at entry (p, c). -/
theorem matmul_zero_apply {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (prec : Option ContractPrecision) (lhs : FVec Ideal ⟨2, ![n, k]⟩ φ₁) (rhs : FVec Ideal ⟨2, ![d, k]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 c q) := by
  rw [Ideal.matmul_constant_zero_apply]
  exact sum_contr_eq D hr hs hl0 hl1 hr0 hr1 lhs rhs p c

/-- A host dot_general A · Bᵀ, at entry (p, c). -/
theorem dotGeneral_apply {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (prec : Option ContractPrecision) (sched : HostSchedule)
    (lhs : FVec Ideal ⟨2, ![n, k]⟩ φ₁) (rhs : FVec Ideal ⟨2, ![d, k]⟩ φ₂) (p : Fin n) (c : Fin d) :
    FloatOps.dotGeneral D prec sched lhs rhs (ix2 p c) = ∑ q : Fin k, lhs (ix2 p q) * rhs (ix2 c q) := by
  rw [Ideal.dotGeneral_apply]
  exact sum_contr_eq D hr hs hl0 hl1 hr0 hr1 lhs rhs p c

variable {α : Type}

/-- An [e, n, r] array with n = a · b cast to [e, a, b, r] reads, at (i, p, s, j), the operand at (i, p · b + s, j). -/
theorem shapeCast_enr_eabr_apply {e m a b r : ℕ} (x : (⟨3, ![e, m, r]⟩ : Shape).Idx → α)
    (h : (⟨3, ![e, m, r]⟩ : Shape).ShapeCasts ⟨4, ![e, a, b, r]⟩) (hm : m = a * b)
    (i : Fin e) (p : Fin a) (s : Fin b) (j : Fin r) (t : Fin m) (ht : t.val = p.val * b + s.val) :
    shapeCast ⟨4, ![e, a, b, r]⟩ x h (ix4 i p s j) = x (ix3 i t j) :=
  shapeCast_apply x h _ _ (by
    rw [Shape.rowMajor_val_three, Shape.rowMajor_val_four]
    show (i.val * m + t.val) * r + j.val = ((i.val * a + p.val) * b + s.val) * r + j.val
    rw [ht, hm]
    ring)

end Cert.LibGemmNT

end
-- ==== Proof.LibRows.lean ====
/-
  Rows of a matrix and their flat numbering, read at an index.

  A reshape keeps every element's row-major position. So a length-(a*b) array viewed as [a, b] holds at (p, k) the
  array's entry p*b + k; an [a, b, c] array viewed as [a*b, c] holds at (p*b + k, d) the array's entry (p, k, d); a
  column [a, 1] viewed as [a] holds at i the column's entry (i, 0). And, at the extended reals, the sum of an [a, b]
  vector along its second axis (a lane reduction into [a], from the additive neutral word) is, at row r, the plain
  sum over k of the entries (r, k).
-/
import Idealize.ShloMosaic.Lib.Pipeline.Value
import Idealize.ShloMosaic.Lib.ValueIdx
import Idealize.ShloMosaic.PureOps.Ideal.Laws

noncomputable section

namespace Cert.LibRows

open Idealize.ShloMosaic Idealize.ShloMosaic.ValueIdx

variable {α : Type}

/-- A length-n array cast to [a, b] reads, at (p, k), the operand at the entry numbered p*b + k. -/
theorem shapeCast_n_ab_apply {n a b : ℕ} (x : (⟨1, ![n]⟩ : Shape).Idx → α) (h : (⟨1, ![n]⟩ : Shape).ShapeCasts ⟨2, ![a, b]⟩)
    (p : Fin a) (k : Fin b) (r : Fin n) (hr : r.val = p.val * b + k.val) :
    shapeCast ⟨2, ![a, b]⟩ x h (ix2 p k) = x (ix1 r) :=
  shapeCast_apply x h _ _ (by
    rw [Shape.rowMajor_val_two, Shape.rowMajor_val_one]
    exact hr)

/-- An [a, b, c] array cast to [n, c] reads, at (r, d) with r = p*b + k, the operand at (p, k, d). -/
theorem shapeCast_abc_nc_apply {n a b c : ℕ} (x : (⟨3, ![a, b, c]⟩ : Shape).Idx → α)
    (h : (⟨3, ![a, b, c]⟩ : Shape).ShapeCasts ⟨2, ![n, c]⟩)
    (p : Fin a) (k : Fin b) (d : Fin c) (r : Fin n) (hr : r.val = p.val * b + k.val) :
    shapeCast ⟨2, ![n, c]⟩ x h (ix2 r d) = x (ix3 p k d) :=
  shapeCast_apply x h _ _ (by
    rw [Shape.rowMajor_val_two, Shape.rowMajor_val_three]
    show (p.val * b + k.val) * c + d.val = r.val * c + d.val
    rw [hr])

/-- A column [a, 1] cast to [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- At the extended reals the sum of an [a, b] f32 vector along axis 1, from the additive neutral word, is at row r the
    sum over k of the entries (r, k). -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ k : Fin b, v (ix2 r k) := by
  refine (Ideal.multiReduction_add_single v acc h hφ hacc (ix1 r)).trans ?_
  refine Finset.sum_congr rfl fun k _ => congrArg v ?_
  funext ax
  refine Fin.ext ?_
  match ax with
  | ⟨0, _⟩ => rfl
  | ⟨1, _⟩ => rfl

end Cert.LibRows

end
-- ==== Proof.Payloads.lean ====
/-
  What one grid step computes, entry by entry, over the exact extended reals.

  A step takes a block of 512 query rows (a high part x0 and a low part x1), a block of 256 key rows (high part x2, low
  part x3), the 256 matching value rows x4, and what the previous step left: a column m of running maxima, a column l of
  running denominators and a 512 × 4096 accumulator. Entry (r, c) of the block of logits is half the sum of the three
  products  x0·x2ᵀ + x0·x3ᵀ + x1·x2ᵀ  at (r, c). The new maximum of row r is the larger of the old one and the largest
  logit of the row; the rescaling factor is exp (old − new); the weights are exp (logit − new); the new denominator is
  factor · old denominator + the sum of the row's weights; entry (r, d) of the new accumulator is factor · old entry + the
  sum over the block's columns c of weight (r, c) · value (c, d). The output entry is accumulator / denominator.
-/
import proofs.«117004_j86260123173325_2_alg».proof.Proof.Gen.KernelIdeal.Skeleton
import proofs.«117004_j86260123173325_2_alg».proof.Proof.LibLayout
import proofs.«117004_j86260123173325_2_alg».proof.Proof.LibDense
import proofs.«117004_j86260123173325_2_alg».proof.Proof.LibGemmNT
import proofs.«117004_j86260123173325_2_alg».proof.Proof.LibRows
import proofs.«117004_j86260123173325_2_alg».proof.Proof.LibRowReduce
import Idealize.ShloMosaic.Lib.ValueIdx
import Idealize.ShloMosaic.Lib.Pipeline.Value

noncomputable section

open scoped BigOperators

namespace Cert.KernelIdeal.Payloads

open Cert.KernelIdeal Cert.KernelIdeal.Gen Idealize.ShloMosaic Idealize.ShloMosaic.ValueIdx

/-! ## The two matrix products -/

abbrev DQK := dot_S512x4096_S256x4096_S512x256_1_1_0_0_n_n
abbrev DPV := dot_S512x256_S256x4096_S512x4096_1_0_0_1_n_n

theorem qk_l0 (i : S512x256.Idx) (q : DQK.contr.Idx) : (DQK.lhsIdx i q 0).val = (i 0).val := by
  unfold DotDims.lhsIdx
  rw [dif_neg (show ¬(0 : Fin S512x4096.rank) ∈ DQK.lhsBatch by decide),
    dif_pos (show (0 : Fin S512x4096.rank) ∈ DQK.lhsNonContracting by decide)]
  rfl
theorem qk_l1 (i : S512x256.Idx) (q : DQK.contr.Idx) : (DQK.lhsIdx i q 1).val = (q ⟨0, by decide⟩).val :=
  DQK.lhsIdx_val_of_single rfl i q
theorem qk_r0 (i : S512x256.Idx) (q : DQK.contr.Idx) : (DQK.rhsIdx i q 0).val = (i 1).val := by
  unfold DotDims.rhsIdx
  rw [dif_neg (show ¬(0 : Fin S256x4096.rank) ∈ DQK.rhsBatch by decide),
    dif_pos (show (0 : Fin S256x4096.rank) ∈ DQK.rhsNonContracting by decide)]
  rfl
theorem qk_r1 (i : S512x256.Idx) (q : DQK.contr.Idx) : (DQK.rhsIdx i q 1).val = (q ⟨0, by decide⟩).val :=
  DQK.rhsIdx_val_of_single rfl i q

/-- A block of query rows times the transpose of a block of key rows, at (r, c). -/
theorem qk_apply (a : FVec Ideal S512x4096 .bf16) (b : FVec Ideal S256x4096 .bf16) (r : Fin 512) (c : Fin 256) :
    matmul DQK none a b (constant (F := Ideal) S512x256 .f32 0x00000000#32) (ix2 r c)
      = ∑ q : Fin 4096, a (ix2 r q) * b (ix2 c q) :=
  Cert.LibGemmNT.matmul_zero_apply DQK rfl rfl qk_l0 qk_l1 qk_r0 qk_r1 none a b r c

theorem pv_l0 (i : S512x4096.Idx) (q : DPV.contr.Idx) : (DPV.lhsIdx i q 0).val = (i 0).val := by
  unfold DotDims.lhsIdx
  rw [dif_neg (show ¬(0 : Fin S512x256.rank) ∈ DPV.lhsBatch by decide),
    dif_pos (show (0 : Fin S512x256.rank) ∈ DPV.lhsNonContracting by decide)]
  rfl
theorem pv_l1 (i : S512x4096.Idx) (q : DPV.contr.Idx) : (DPV.lhsIdx i q 1).val = (q ⟨0, by decide⟩).val :=
  DPV.lhsIdx_val_of_single rfl i q
theorem pv_r0 (i : S512x4096.Idx) (q : DPV.contr.Idx) : (DPV.rhsIdx i q 0).val = (q ⟨0, by decide⟩).val :=
  DPV.rhsIdx_val_of_single rfl i q
theorem pv_r1 (i : S512x4096.Idx) (q : DPV.contr.Idx) : (DPV.rhsIdx i q 1).val = (i 1).val := by
  unfold DotDims.rhsIdx
  rw [dif_neg (show ¬(1 : Fin S256x4096.rank) ∈ DPV.rhsBatch by decide),
    dif_pos (show (1 : Fin S256x4096.rank) ∈ DPV.rhsNonContracting by decide)]
  rfl

/-- A block of weights times a block of value rows, at (r, d). -/
theorem pv_apply (a : FVec Ideal S512x256 .bf16) (b : FVec Ideal S256x4096 .bf16) (r : Fin 512) (d : Fin 4096) :
    matmul DPV none a b (constant (F := Ideal) S512x4096 .f32 0x00000000#32) (ix2 r d)
      = ∑ c : Fin 256, a (ix2 r c) * b (ix2 c d) :=
  Cert.LibDense.matmul_zero_apply DPV rfl rfl pv_l0 pv_l1 pv_r0 pv_r1 none a b r d

/-! ## The step's values, entry by entry -/

/-- The block of logits at (r, c). -/
theorem logits_apply (x0 x1 : FVec Ideal S512x4096 .bf16) (x2 x3 : FVec Ideal S256x4096 .bf16) (r : Fin 512) (c : Fin 256) :
    k0_pay8 (F := Ideal) x0 x1 x2 x3 (ix2 r c)
      = ((∑ q : Fin 4096, x0 (ix2 r q) * x2 (ix2 c q)) + (∑ q : Fin 4096, x0 (ix2 r q) * x3 (ix2 c q))
          + (∑ q : Fin 4096, x1 (ix2 r q) * x2 (ix2 c q))) * Ideal.ofBits .f32 0x3F000000#32 := by
  unfold k0_pay8
  simp only [shapeCast_self]
  show (matmul DQK none x0 x2 (constant (F := Ideal) S512x256 .f32 0x00000000#32) (ix2 r c)
      + matmul DQK none x0 x3 (constant (F := Ideal) S512x256 .f32 0x00000000#32) (ix2 r c)
      + matmul DQK none x1 x2 (constant (F := Ideal) S512x256 .f32 0x00000000#32) (ix2 r c)) * Ideal.ofBits .f32 0x3F000000#32 = _
  rw [qk_apply, qk_apply, qk_apply]

/-- The new running maximum of row r. -/
theorem newmax_apply (x0 x1 : FVec Ideal S512x4096 .bf16) (x2 x3 : FVec Ideal S256x4096 .bf16) (m : FVec Ideal S512x1 .f32)
    (r : Fin 512) (u : Fin 1) :
    k0_pay9 (F := Ideal) x0 x1 x2 x3 m (ix2 r u)
      = max (m (ix2 r u)) ((Finset.univ : Finset (Fin 256)).fold max (Ideal.ofBits .f32 0xFF800000#32)
          (fun c => k0_pay8 (F := Ideal) x0 x1 x2 x3 (ix2 r c))) := by
  unfold k0_pay9
  show max (m (ix2 r u)) (shapeCast S512x1 (multiReduction .maximumf [1] S512 (k0_pay8 (F := Ideal) x0 x1 x2 x3) 0xFF800000#32
      reduces_S512x256_S512 (.inl rfl) rfl) shapeCasts_S512_S512x1 (ix2 r u)) = _
  refine congrArg (max (m (ix2 r u))) ?_
  refine (Cert.LibLayout.shapeCast_a_a1_apply _ shapeCasts_S512_S512x1 r u).trans ?_
  exact Cert.LibRowReduce.rowMax_apply (k0_pay8 (F := Ideal) x0 x1 x2 x3) 0xFF800000#32 reduces_S512x256_S512 (.inl rfl) rfl r

/-- The rescaling factor of row r. -/
theorem factor_apply (x0 x1 : FVec Ideal S512x4096 .bf16) (x2 x3 : FVec Ideal S256x4096 .bf16) (m m2 : FVec Ideal S512x1 .f32)
    (r : Fin 512) (u : Fin 1) :
    k0_pay10 (F := Ideal) x0 x1 x2 x3 m m2 (ix2 r u)
      = Ideal.exp (m2 (ix2 r u) - k0_pay9 (F := Ideal) x0 x1 x2 x3 m (ix2 r u)) := rfl

/-- The weight at (r, c). -/
theorem weight_apply (x0 x1 : FVec Ideal S512x4096 .bf16) (x2 x3 : FVec Ideal S256x4096 .bf16) (m : FVec Ideal S512x1 .f32)
    (r : Fin 512) (c : Fin 256) :
    k0_pay11 (F := Ideal) x0 x1 x2 x3 m (ix2 r c)
      = Ideal.exp (k0_pay8 (F := Ideal) x0 x1 x2 x3 (ix2 r c) - k0_pay9 (F := Ideal) x0 x1 x2 x3 m (ix2 r (0 : Fin 1))) := by
  unfold k0_pay11
  show Ideal.exp (k0_pay8 (F := Ideal) x0 x1 x2 x3 (ix2 r c)
      - broadcastTo S512x256 (k0_pay9 (F := Ideal) x0 x1 x2 x3 m) broadcasts_S512x1_S512x256 (ix2 r c)) = _
  rw [Cert.LibLayout.broadcastTo_a1_ab_apply]

/-- The new denominator of row r. -/
theorem newden_apply (x0 x1 : FVec Ideal S512x4096 .bf16) (x2 x3 : FVec Ideal S256x4096 .bf16) (m m2 l : FVec Ideal S512x1 .f32)
    (r : Fin 512) (u : Fin 1) :
    k0_pay12 (F := Ideal) x0 x1 x2 x3 m m2 l (ix2 r u)
      = k0_pay10 (F := Ideal) x0 x1 x2 x3 m m2 (ix2 r u) * l (ix2 r u)
        + ∑ c : Fin 256, k0_pay11 (F := Ideal) x0 x1 x2 x3 m (ix2 r c) := by
  unfold k0_pay12
  show k0_pay10 (F := Ideal) x0 x1 x2 x3 m m2 (ix2 r u) * l (ix2 r u)
      + shapeCast S512x1 (multiReduction .add [1] S512 (k0_pay11 (F := Ideal) x0 x1 x2 x3 m) 0x00000000#32
          reduces_S512x256_S512 (.inl rfl) rfl) shapeCasts_S512_S512x1 (ix2 r u) = _
  refine congrArg (k0_pay10 (F := Ideal) x0 x1 x2 x3 m m2 (ix2 r u) * l (ix2 r u) + ·) ?_
  refine (Cert.LibLayout.shapeCast_a_a1_apply _ shapeCasts_S512_S512x1 r u).trans ?_
  exact Cert.LibRows.rowSum_apply (k0_pay11 (F := Ideal) x0 x1 x2 x3 m) 0x00000000#32 reduces_S512x256_S512 (.inl rfl) rfl r

/-- The new accumulator at (r, d). -/
theorem newacc_apply (a : FVec Ideal S512x1 .f32) (p : FVec Ideal S512x256 .f32) (x4 : FVec Ideal S256x4096 .bf16)
    (acc : FVec Ideal S512x4096 .f32) (r : Fin 512) (d : Fin 4096) :
    k0_pay2 (F := Ideal) a p x4 acc (ix2 r d)
      = a (ix2 r (0 : Fin 1)) * acc (ix2 r d) + ∑ c : Fin 256, p (ix2 r c) * x4 (ix2 c d) := by
  unfold k0_pay2
  simp only [shapeCast_self]
  show broadcastTo S512x4096 a broadcasts_S512x1_S512x4096 (ix2 r d) * acc (ix2 r d)
      + matmul DPV none (truncf .bf16 p bitsLt_bf16_f32) x4 (constant (F := Ideal) S512x4096 .f32 0x00000000#32) (ix2 r d) = _
  rw [Cert.LibLayout.broadcastTo_a1_ab_apply, pv_apply]
  rfl

/-- The output at (r, d). -/
theorem out_apply (acc : FVec Ideal S512x4096 .f32) (l : FVec Ideal S512x1 .f32) (r : Fin 512) (d : Fin 4096) :
    k0_pay4 (F := Ideal) acc l (ix2 r d) = Ideal.div (acc (ix2 r d)) (l (ix2 r (0 : Fin 1))) := by
  unfold k0_pay4
  show Ideal.div (acc (ix2 r d)) (broadcastTo S512x4096 l broadcasts_S512x1_S512x4096 (ix2 r d)) = _
  rw [Cert.LibLayout.broadcastTo_a1_ab_apply]

/-- The stores of the three carried buffers only pass their values through. -/
theorem pay1_eq (v : FVec Ideal S512x1 .f32) : k0_pay1 (F := Ideal) v = v := shapeCast_self _ _
theorem pay3_eq (v : FVec Ideal S512x1 .f32) : k0_pay3 (F := Ideal) v = v := shapeCast_self _ _

/-- What the first step of a row block finds in the carried buffers: -∞, 0 and 0 everywhere. -/
theorem pay5_apply (i : S512x1.Idx) : k0_pay5 (F := Ideal) i = Ideal.ofBits .f32 0xFF800000#32 := by
  unfold k0_pay5; rw [shapeCast_self]; rfl
theorem pay6_apply (i : S512x1.Idx) : k0_pay6 (F := Ideal) i = Ideal.ofBits .f32 0x00000000#32 := by
  unfold k0_pay6; rw [shapeCast_self]; rfl
theorem pay7_apply (i : S512x4096.Idx) : k0_pay7 (F := Ideal) i = Ideal.ofBits .f32 0x00000000#32 := by
  unfold k0_pay7; rw [shapeCast_self]; rfl

end Cert.KernelIdeal.Payloads

end
-- ==== Proof.Step.lean ====
/-
  One grid step on one row, as a step of the block-by-block softmax average.

  When the query block's low part and the key block's low part are (real) entries minus themselves, the two extra
  products vanish and the block of logits is half the plain product of the query rows with the key rows. When those
  logits and the value rows are real numbers, a step in the middle of a row block takes a carried triple to the next
  carried triple, and the first step, which starts from -∞, 0 and 0, produces the first one.
-/
import proofs.«117004_j86260123173325_2_alg».proof.Proof.Payloads
import proofs.«117004_j86260123173325_2_alg».proof.Proof.LibOnlineSoftmax
import proofs.«117004_j86260123173325_2_alg».proof.Proof.LibWords

noncomputable section

open scoped BigOperators

namespace Cert.KernelIdeal.Step

open Cert.KernelIdeal Cert.KernelIdeal.Gen Cert.KernelIdeal.Payloads Cert.OnlineSoftmax Cert.Attention
open Idealize.ShloMosaic Idealize.ShloMosaic.ValueIdx

/-- The block of logits at (r, cc), when the low parts are entries minus themselves. -/
theorem logits_split (x0 x1 : FVec Ideal S512x4096 .bf16) (x2 x3 : FVec Ideal S256x4096 .bf16) (r : Fin 512) (cc : Fin 256)
    (qrow krow : Fin 4096 → EReal)
    (h0 : ∀ q, x0 (ix2 r q) = qrow q) (h1 : ∀ q, x1 (ix2 r q) = qrow q - qrow q)
    (h2 : ∀ q, x2 (ix2 cc q) = krow q) (h3 : ∀ q, x3 (ix2 cc q) = krow q - krow q)
    (hq : ∀ q, ∃ a : ℝ, qrow q = (a : EReal)) (hk : ∀ q, ∃ a : ℝ, krow q = (a : EReal)) :
    k0_pay8 (F := Ideal) x0 x1 x2 x3 (ix2 r cc) = (∑ q, qrow q * krow q) * Ideal.ofBits .f32 0x3F000000#32 := by
  rw [logits_apply]
  have eq : ∀ q, qrow q - qrow q = 0 := fun q => sub_self_real _ (hq q)
  have ek : ∀ q, krow q - krow q = 0 := fun q => sub_self_real _ (hk q)
  simp only [h0, h1, h2, h3, eq, ek, mul_zero, zero_mul, Finset.sum_const_zero, add_zero]

variable (x0 x1 : FVec Ideal S512x4096 .bf16) (x2 x3 x4 : FVec Ideal S256x4096 .bf16) (r : Fin 512)
  (σ : ℕ → Fin 256 → ℝ) (ν : Fin 4096 → ℕ → Fin 256 → ℝ)

/-- A step after the first: the carried triple of row r moves on by one block. -/
theorem mid_carried (m l : FVec Ideal S512x1 .f32) (acc : FVec Ideal S512x4096 .f32) (n : ℕ)
    (hs : ∀ cc : Fin 256, k0_pay8 (F := Ideal) x0 x1 x2 x3 (ix2 r cc) = ((σ n cc : ℝ) : EReal))
    (hv : ∀ (cc : Fin 256) (d : Fin 4096), x4 (ix2 cc d) = ((ν d n cc : ℝ) : EReal))
    (h : Carried σ ν n (m (ix2 r (0 : Fin 1))) (l (ix2 r (0 : Fin 1))) (fun d => acc (ix2 r d))) :
    Carried σ ν (n + 1) (k0_pay3 (F := Ideal) (k0_pay9 x0 x1 x2 x3 m) (ix2 r (0 : Fin 1)))
      (k0_pay1 (F := Ideal) (k0_pay12 x0 x1 x2 x3 m m l) (ix2 r (0 : Fin 1)))
      (fun d => k0_pay2 (F := Ideal) (k0_pay10 x0 x1 x2 x3 m m) (k0_pay11 x0 x1 x2 x3 m) x4 acc (ix2 r d)) := by
  rw [pay3_eq, pay1_eq]
  refine carried_step (by norm_num) σ ν h _ _ _ ?_ ?_ (fun d => ?_)
  · rw [newmax_apply, negInf_eq]; simp only [hs]
  · rw [newden_apply, factor_apply]; simp only [weight_apply, hs]
  · show k0_pay2 (F := Ideal) (k0_pay10 x0 x1 x2 x3 m m) (k0_pay11 x0 x1 x2 x3 m) x4 acc (ix2 r d) = _
    rw [newacc_apply, factor_apply]; simp only [weight_apply, hs, hv]

/-- The first step of a row block: from -∞, 0 and 0 to the first carried triple. -/
theorem first_carried
    (hs : ∀ cc : Fin 256, k0_pay8 (F := Ideal) x0 x1 x2 x3 (ix2 r cc) = ((σ 0 cc : ℝ) : EReal))
    (hv : ∀ (cc : Fin 256) (d : Fin 4096), x4 (ix2 cc d) = ((ν d 0 cc : ℝ) : EReal)) :
    Carried σ ν 1 (k0_pay3 (F := Ideal) (k0_pay9 x0 x1 x2 x3 (k0_pay5 (F := Ideal))) (ix2 r (0 : Fin 1)))
      (k0_pay1 (F := Ideal) (k0_pay12 x0 x1 x2 x3 (k0_pay5 (F := Ideal)) (k0_pay5 (F := Ideal)) (k0_pay6 (F := Ideal))) (ix2 r (0 : Fin 1)))
      (fun d => k0_pay2 (F := Ideal) (k0_pay10 x0 x1 x2 x3 (k0_pay5 (F := Ideal)) (k0_pay5 (F := Ideal))) (k0_pay11 x0 x1 x2 x3 (k0_pay5 (F := Ideal))) x4 (k0_pay7 (F := Ideal)) (ix2 r d)) := by
  rw [pay3_eq, pay1_eq]
  refine carried_first (by norm_num) σ ν _ _ _ ?_ ?_ (fun d => ?_)
  · rw [newmax_apply, pay5_apply, negInf_eq]; simp only [hs]
  · rw [newden_apply, factor_apply, pay5_apply, pay6_apply, negInf_eq, zero_eq]; simp only [weight_apply, hs]
  · show k0_pay2 (F := Ideal) (k0_pay10 x0 x1 x2 x3 (k0_pay5 (F := Ideal)) (k0_pay5 (F := Ideal))) (k0_pay11 x0 x1 x2 x3 (k0_pay5 (F := Ideal))) x4 (k0_pay7 (F := Ideal)) (ix2 r d) = _
    rw [newacc_apply, factor_apply, pay5_apply, pay7_apply, negInf_eq, zero_eq]; simp only [weight_apply, hs, hv]

/-- The last step's output entry is the accumulator over the denominator it has just stored. -/
theorem out_entry (acc : FVec Ideal S512x4096 .f32) (l : FVec Ideal S512x1 .f32) (d : Fin 4096) :
    k0_pay4 (F := Ideal) acc (k0_pay1 (F := Ideal) l) (ix2 r d) = Ideal.div (acc (ix2 r d)) (k0_pay1 (F := Ideal) l (ix2 r (0 : Fin 1))) :=
  out_apply _ _ r d

end Cert.KernelIdeal.Step

end
-- ==== Proof.PointData.lean ====
/-
  The logits and the values a grid point works on.

  At point t the query windows hold the query rows from 512·(t / 16) on and the key and value windows the rows from
  256·(t % 16) on; so entry (r, cc) of the point's block of logits is the logit of query row 512·(t / 16) + r against key
  row 256·(t % 16) + cc, and entry (cc, d) of its value window is the value entry (256·(t % 16) + cc, d): block t % 16 of
  that query row's logits and of column d of the values.
-/
import proofs.«117004_j86260123173325_2_alg».proof.Proof.Inputs
import proofs.«117004_j86260123173325_2_alg».proof.Proof.Step
import proofs.«117004_j86260123173325_2_alg».proof.Proof.Reference

noncomputable section

namespace Cert.KernelIdeal.PointData

open Cert.KernelIdeal Cert.KernelIdeal.Gen Cert.KernelIdeal.Inputs Cert.KernelIdeal.Step
open Cert.KernelIdeal.Payloads Cert.Attention Cert.OnlineSoftmax
open Idealize.ShloMosaic Idealize.ShloMosaic.TcCoe Idealize.SL.Sem Idealize.ShloMosaic.ValueIdx
open Cert.ReferenceIdeal.Read (val_main_v2 val_main_v4 val_main_v6)

variable (m : (ℓ : Loc nD τ sig) → Buf (Elt Ideal) ℓ) (c : Dev nD)

set_option maxHeartbeats 4000000 in
/-- The point's block of logits, at (r, cc). -/
theorem logits_at (hX : Finite (argX m c)) (t : Fin cfg0.N) (r : Fin 512) (i : Fin 4096)
    (hi : i.val = 512 * (t.val / 16) + r.val) (cc : Fin 256) :
    k0_pay8 (F := Ideal) (iblk m c 0 t) (iblk m c 1 t) (iblk m c 2 t) (iblk m c 3 t) (ix2 r cc) = ((blockLogit (argX m c) i (t.val % 16) cc : ℝ) : EReal) := by
  have hN : cfg0.N = 128 := N_0
  have htN : t.val < 128 := lt_of_lt_of_eq t.isLt hN
  have hj : t.val % 16 * 256 + cc.val < 4096 := by have := cc.isLt; omega
  have hk : (⟨t.val % 16 * 256 + cc.val, hj⟩ : Fin 4096).val = 256 * (t.val % 16) + cc.val := by
    show t.val % 16 * 256 + cc.val = 256 * (t.val % 16) + cc.val; omega
  rw [blockLogit_eq (argX m c) i (t.val % 16) cc ⟨t.val % 16 * 256 + cc.val, hj⟩ rfl, ← logit_eq (argX m c) hX]
  exact logits_split (iblk m c 0 t) (iblk m c 1 t) (iblk m c 2 t) (iblk m c 3 t) r cc
    (fun q => val_main_v2 (F := Ideal) (argX m c) (ix2 i q))
    (fun q => val_main_v4 (F := Ideal) (argX m c) (ix2 (⟨t.val % 16 * 256 + cc.val, hj⟩ : Fin 4096) q))
    (fun q => query_block m c t r q i hi)
    (fun q => querylo_block m c t r q i hi)
    (fun q => key_block m c t cc q ⟨t.val % 16 * 256 + cc.val, hj⟩ hk)
    (fun q => keylo_block m c t cc q ⟨t.val % 16 * 256 + cc.val, hj⟩ hk)
    (fun q => query_real (argX m c) hX _) (fun q => key_real (argX m c) hX _)

set_option maxHeartbeats 4000000 in
/-- The point's value window, at (cc, d). -/
theorem values_at (hX : Finite (argX m c)) (t : Fin cfg0.N) (cc : Fin 256) (d : Fin 4096) :
    (iblk m c 4 t : Vec Ideal S256x4096 .bf16) (ix2 cc d) = ((blockValue (argX m c) d (t.val % 16) cc : ℝ) : EReal) := by
  have hN : cfg0.N = 128 := N_0
  have htN : t.val < 128 := lt_of_lt_of_eq t.isLt hN
  have hj : t.val % 16 * 256 + cc.val < 4096 := by have := cc.isLt; omega
  have hk : (⟨t.val % 16 * 256 + cc.val, hj⟩ : Fin 4096).val = 256 * (t.val % 16) + cc.val := by
    show t.val % 16 * 256 + cc.val = 256 * (t.val % 16) + cc.val; omega
  rw [blockValue_eq (argX m c) d (t.val % 16) cc ⟨t.val % 16 * 256 + cc.val, hj⟩ rfl, ← value_eq (argX m c) hX]
  exact value_block m c t cc d ⟨t.val % 16 * 256 + cc.val, hj⟩ hk

end Cert.KernelIdeal.PointData

end
-- ==== Proof.Carried.lean ====
/-
  The invariant of the grid walk.

  Grid point t is the pair (row block t / 16, column block t % 16), and the sixteen points of a row block run in order.
  By induction on the point, after point t row r of the carried buffers holds the carried triple of query row
  512·(t / 16) + r over the first t % 16 + 1 column blocks: the first point of a row block starts it from -∞, 0, 0, every
  later point moves on by one block the triple the point before left.
-/
import proofs.«117004_j86260123173325_2_alg».proof.Proof.ScratchFirst
import proofs.«117004_j86260123173325_2_alg».proof.Proof.ScratchMid
import proofs.«117004_j86260123173325_2_alg».proof.Proof.ScratchLast
import proofs.«117004_j86260123173325_2_alg».proof.Proof.PointData

noncomputable section

namespace Cert.KernelIdeal.Carry

open Cert.KernelIdeal Cert.KernelIdeal.Gen Cert.KernelIdeal.Inputs Cert.KernelIdeal.Step Cert.KernelIdeal.Scratch
open Cert.KernelIdeal.PointData Cert.KernelIdeal.Payloads Cert.Attention Cert.OnlineSoftmax
open Idealize.ShloMosaic Idealize.ShloMosaic.TcCoe Idealize.SL.Sem Idealize.ShloMosaic.ValueIdx

variable (m : (ℓ : Loc nD τ sig) → Buf (Elt Ideal) ℓ) (c : Dev nD)

set_option maxHeartbeats 4000000 in
/-- The first point of a row block. -/
theorem carried_first_at (hX : Finite (argX m c)) (t : Fin cfg0.N) (h0 : t.val % 16 = 0) (r : Fin 512) (i : Fin 4096)
    (hi : i.val = 512 * (t.val / 16) + r.val) :
    Carried (blockLogit (argX m c) i) (blockValue (argX m c)) 1
      ((outsAt0 m c t.val t.isLt).2.1 (ix2 r (0 : Fin 1))) ((outsAt0 m c t.val t.isLt).2.2.1 (ix2 r (0 : Fin 1)))
      (fun d : Fin 4096 => (outsAt0 m c t.val t.isLt).2.2.2 (ix2 r d)) := by
  have h1 : ¬t.val % 16 = 15 := by omega
  rw [first_max_at m c t h0 h1, first_den_at m c t h0 h1, first_acc_at m c t h0 h1]
  have hs0 : ∀ cc : Fin 256, k0_pay8 (F := Ideal) (iblk m c 0 t) (iblk m c 1 t) (iblk m c 2 t) (iblk m c 3 t) (ix2 r cc)
      = ((blockLogit (argX m c) i 0 cc : ℝ) : EReal) := fun cc => by
    have := logits_at m c hX t r i hi cc; rwa [h0] at this
  have hv0 : ∀ (cc : Fin 256) (d : Fin 4096), (iblk m c 4 t : Vec Ideal S256x4096 .bf16) (ix2 cc d)
      = ((blockValue (argX m c) d 0 cc : ℝ) : EReal) := fun cc d => by
    have := values_at m c hX t cc d; rwa [h0] at this
  exact first_carried (iblk m c 0 t) (iblk m c 1 t) (iblk m c 2 t) (iblk m c 3 t) (iblk m c 4 t) r (blockLogit (argX m c) i) (blockValue (argX m c)) hs0 hv0

set_option maxHeartbeats 4000000 in
/-- A later point, from the triple the point before left. -/
theorem carried_later_at (hX : Finite (argX m c)) (t : Fin cfg0.N) (h0 : ¬t.val % 16 = 0) (r : Fin 512) (i : Fin 4096)
    (hi : i.val = 512 * (t.val / 16) + r.val)
    (ihp : Carried (blockLogit (argX m c) i) (blockValue (argX m c)) (t.val % 16)
      ((outsAt0 m c (t.val - 1) (Nat.lt_of_le_of_lt (Nat.sub_le _ _) t.isLt)).2.1 (ix2 r (0 : Fin 1))) ((outsAt0 m c (t.val - 1) (Nat.lt_of_le_of_lt (Nat.sub_le _ _) t.isLt)).2.2.1 (ix2 r (0 : Fin 1)))
      (fun d : Fin 4096 => (outsAt0 m c (t.val - 1) (Nat.lt_of_le_of_lt (Nat.sub_le _ _) t.isLt)).2.2.2 (ix2 r d))) :
    Carried (blockLogit (argX m c) i) (blockValue (argX m c)) (t.val % 16 + 1)
      ((outsAt0 m c t.val t.isLt).2.1 (ix2 r (0 : Fin 1))) ((outsAt0 m c t.val t.isLt).2.2.1 (ix2 r (0 : Fin 1)))
      (fun d : Fin 4096 => (outsAt0 m c t.val t.isLt).2.2.2 (ix2 r d)) := by
  have e0 : (outsAt0 m c t.val t.isLt).2.1 = k0_pay3 (F := Ideal) (k0_pay9 (F := Ideal) (iblk m c 0 t) (iblk m c 1 t) (iblk m c 2 t) (iblk m c 3 t) (outsAt0 m c (t.val - 1) (Nat.lt_of_le_of_lt (Nat.sub_le _ _) t.isLt)).2.1) := by
    by_cases h1 : t.val % 16 = 15
    · exact last_max_at m c t h0 h1
    · exact mid_max_at m c t h0 h1
  have e1 : (outsAt0 m c t.val t.isLt).2.2.1 = k0_pay1 (F := Ideal) (k0_pay12 (F := Ideal) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1) := by
    by_cases h1 : t.val % 16 = 15
    · exact last_den_at m c t h0 h1
    · exact mid_den_at m c t h0 h1
  have e2 : (outsAt0 m c t.val t.isLt).2.2.2 = k0_pay2 (F := Ideal) (k0_pay10 (F := Ideal) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.1) (k0_pay11 (F := Ideal) (iblk m c 0 t) (iblk m c 1 t) (iblk m c 2 t) (iblk m c 3 t) (outsAt0 m c (t.val - 1) (Nat.lt_of_le_of_lt (Nat.sub_le _ _) t.isLt)).2.1) (iblk m c 4 t) (outsAt0 m c (t.val - 1) (Nat.lt_of_le_of_lt (Nat.sub_le _ _) t.isLt)).2.2.2 := by
    by_cases h1 : t.val % 16 = 15
    · exact last_acc_at m c t h0 h1
    · exact mid_acc_at m c t h0 h1
  rw [e0, e1, e2]
  exact mid_carried (iblk m c 0 t) (iblk m c 1 t) (iblk m c 2 t) (iblk m c 3 t) (iblk m c 4 t) r (blockLogit (argX m c) i) (blockValue (argX m c)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    (t.val % 16) (logits_at m c hX t r i hi) (values_at m c hX t) ihp

/-- After point t, row r of the carried buffers holds the carried triple of query row i = 512·(t / 16) + r over the first
    t % 16 + 1 column blocks. -/
theorem carried_at (hX : Finite (argX m c)) (n : ℕ) : ∀ (t : Fin cfg0.N), t.val = n → ∀ (r : Fin 512) (i : Fin 4096)
    (hi : i.val = 512 * (t.val / 16) + r.val),
    Carried (blockLogit (argX m c) i) (blockValue (argX m c)) (t.val % 16 + 1)
      ((outsAt0 m c t.val t.isLt).2.1 (ix2 r (0 : Fin 1))) ((outsAt0 m c t.val t.isLt).2.2.1 (ix2 r (0 : Fin 1)))
      (fun d : Fin 4096 => (outsAt0 m c t.val t.isLt).2.2.2 (ix2 r d)) := by
  induction n using Nat.strong_induction_on with
  | _ n ih =>
    intro t ht r i hi
    subst ht
    have hN : cfg0.N = 128 := N_0
    have htN : t.val < 128 := lt_of_lt_of_eq t.isLt hN
    by_cases h0 : t.val % 16 = 0
    · rw [show t.val % 16 + 1 = 1 by omega]
      exact carried_first_at m c hX t h0 r i hi
    · have hp : t.val - 1 < t.val := by omega
      have hpN : t.val - 1 < cfg0.N := by omega
      have ihp : Carried (blockLogit (argX m c) i) (blockValue (argX m c)) ((t.val - 1) % 16 + 1)
          ((outsAt0 m c (t.val - 1) (Nat.lt_of_le_of_lt (Nat.sub_le _ _) t.isLt)).2.1 (ix2 r (0 : Fin 1))) ((outsAt0 m c (t.val - 1) (Nat.lt_of_le_of_lt (Nat.sub_le _ _) t.isLt)).2.2.1 (ix2 r (0 : Fin 1)))
          (fun d : Fin 4096 => (outsAt0 m c (t.val - 1) (Nat.lt_of_le_of_lt (Nat.sub_le _ _) t.isLt)).2.2.2 (ix2 r d)) :=
        ih (t.val - 1) hp ⟨t.val - 1, hpN⟩ rfl r i (by
          show i.val = 512 * ((t.val - 1) / 16) + r.val
          have : (t.val - 1) / 16 = t.val / 16 := by omega
          rw [this]; exact hi)
      rw [show (t.val - 1) % 16 + 1 = t.val % 16 by omega] at ihp
      exact carried_later_at m c hX t h0 r i hi ihp

end Cert.KernelIdeal.Carry

end
-- ==== Proof.KernelValue.lean ====
/-
  The kernel's result array, entry by entry.

  The last point of a row block writes accumulator / denominator into the output block. By the invariant of the walk
  that is the softmax-weighted average over all sixteen column blocks, that is over the whole row: the entry of the
  reference's result. Only these last points write their block back, and their blocks tile the result array.
-/
import proofs.«117004_j86260123173325_2_alg».proof.Proof.Gen.KernelIdeal.Value
import proofs.«117004_j86260123173325_2_alg».proof.Proof.Carried

noncomputable section

namespace Cert.KernelIdeal.Result

open Cert.KernelIdeal Cert.KernelIdeal.Gen Cert.KernelIdeal.Inputs Cert.KernelIdeal.Scratch Cert.KernelIdeal.Carry
open Cert.KernelIdeal.Payloads Cert.Attention Cert.OnlineSoftmax
open Idealize.ShloMosaic Idealize.ShloMosaic.TcCoe Idealize.SL.Sem Idealize.ShloMosaic.ValueIdx
open Idealize.ShloMosaic.Pipeline (Dat)
open Cert.ReferenceIdeal.Read (val_main_v2 val_main_v4 val_main_v6 val_main_v22)

variable (m : (ℓ : Loc nD τ sig) → Buf (Elt Ideal) ℓ) (ρ : Dev nD → PrngReg) (c : Dev nD)

/-! ## The output -/

/-- The array the kernel's result is compared with: the reference's result of the input as launched. -/
abbrev result : S4096x4096.Idx → EReal := val_main_v22 (F := Ideal) (argX m c)

set_option maxHeartbeats 4000000 in
/-- What the last point of a row block writes into the output block, at (r, d): the reference's entry (512·(t / 16) + r, d). -/
theorem output_apply (hX : Finite (argX m c)) (t : Fin cfg0.N) (h1 : t.val % 16 = 15) (r : Fin 512) (d : Fin 4096)
    (i : Fin 4096) (hi : i.val = 512 * (t.val / 16) + r.val) :
    (outsAt0 m c t.val t.isLt).1 (ix2 r d) = result m c (ix2 i d) := by
  have h0 : ¬t.val % 16 = 0 := by omega
  have hc := carried_at m c hX t.val t rfl r i hi
  rw [show t.val % 16 + 1 = 16 by omega] at hc
  show _ = val_main_v22 (F := Ideal) (argX m c) (ix2 i d)
  rw [reference_apply (argX m c) hX, ← avg_blocks_eq, ← carried_quotient (by norm_num) _ _ (by norm_num) hc d,
    last_out_at m c t h0 h1, ← last_acc_at m c t h0 h1, ← last_den_at m c t h0 h1]
  exact out_apply _ _ r d

/-- What a point that writes back writes is its block of the reference's result. -/
theorem flushed_eq (hX : Finite (argX m c)) (t : Fin cfg0.N) (hf : (cfg0.win 5).flush t = true) :
    (dats m 0 c).flushed 5 t = ((cfg0.win 5).blk t).view.read (Elt Ideal) (result m c) := by
  have h1 : t.val % 16 = 15 := (flush0_5 t).mp hf
  have hN : cfg0.N = 128 := N_0
  rw [Cert.KernelIdeal.Value.flushed5]
  funext y
  obtain ⟨r, d, rfl⟩ : ∃ (r : Fin 512) (d : Fin 4096), y = ix2 r d := ⟨y 0, y 1, eq_ix2 y⟩
  rw [View.read_apply]
  show (outsAt0 m c t.val t.isLt).1 (ix2 r d) = result m c (((cfg0.win 5).blk t).view.emb (ix2 r d))
  have hi : 512 * (t.val / 16) + r.val < 4096 := by have := t.isLt; have := r.isLt; omega
  have e : ((cfg0.win 5).blk t).view.emb (ix2 r d) = ix2 (⟨512 * (t.val / 16) + r.val, hi⟩ : Fin 4096) d := by
    funext a; apply Fin.ext
    have f := idx_facts t
    match a with
    | ⟨0, _⟩ => show win0_5.index t (0 : Fin 2) * 512 + 1 * r.val = 512 * (t.val / 16) + r.val; rw [f.2.2.2.2.2.2.2.2.2.2.1]; omega
    | ⟨1, _⟩ => show win0_5.index t (1 : Fin 2) * 4096 + 1 * d.val = d.val; rw [f.2.2.2.2.2.2.2.2.2.2.2.1]; omega
  rw [e]
  exact output_apply m c hX t h1 r d _ rfl

/-- An index of the result array is in point t's block iff each coordinate is in the block's range on its axis. -/
theorem mem_blk (t : Fin cfg0.N) (i : S4096x4096.Idx) :
    i ∈ ((cfg0.win 5).blk t).view.set ↔ ∀ a : Fin 2, win0_5.index t a * S512x4096.size a ≤ (i a).val
      ∧ (i a).val < win0_5.index t a * S512x4096.size a + S512x4096.size a := by
  show i ∈ ((View.whole main_v16).slice (win0_5.rect t)).set ↔ _
  rw [View.set_slice_whole, Rect.mem_set_unit]
  exact Iff.rfl

/-- Every index of the result array is in the block of the last point of its row block. -/
theorem cover (i : S4096x4096.Idx) :
    ∃ t : Fin cfg0.N, (cfg0.win 5).flush t = true ∧ i ∈ ((cfg0.win 5).blk t).view.set := by
  have hN : cfg0.N = 128 := N_0
  have hi0 : (i 0).val < 4096 := (i 0).isLt
  have hi1 : (i 1).val < 4096 := (i 1).isLt
  have ht : 16 * ((i 0).val / 512) + 15 < cfg0.N := by omega
  refine ⟨⟨16 * ((i 0).val / 512) + 15, ht⟩, (flush0_5 _).mpr (by show (16 * ((i 0).val / 512) + 15) % 16 = 15; omega), ?_⟩
  rw [mem_blk]
  have f := idx_facts ⟨16 * ((i 0).val / 512) + 15, ht⟩
  have f0 : win0_5.index ⟨16 * ((i 0).val / 512) + 15, ht⟩ (0 : Fin 2) = (16 * ((i 0).val / 512) + 15) / 16 := f.2.2.2.2.2.2.2.2.2.2.1
  have f1 : win0_5.index ⟨16 * ((i 0).val / 512) + 15, ht⟩ (1 : Fin 2) = 0 := f.2.2.2.2.2.2.2.2.2.2.2.1
  intro a
  match a with
  | ⟨0, _⟩ =>
    show win0_5.index ⟨16 * ((i 0).val / 512) + 15, ht⟩ (0 : Fin 2) * 512 ≤ (i 0).val
      ∧ (i 0).val < win0_5.index ⟨16 * ((i 0).val / 512) + 15, ht⟩ (0 : Fin 2) * 512 + 512
    rw [f0]; omega
  | ⟨1, _⟩ =>
    show win0_5.index ⟨16 * ((i 0).val / 512) + 15, ht⟩ (1 : Fin 2) * 4096 ≤ (i 1).val
      ∧ (i 1).val < win0_5.index ⟨16 * ((i 0).val / 512) + 15, ht⟩ (1 : Fin 2) * 4096 + 4096
    rw [f1]; omega

/-- So the kernel's result array ends holding the reference's result. -/
theorem final (hX : Finite (argX m c)) : (dats m 0 c).arrAt 5 cfg0.N = result m c :=
  (dats m 0 c).arrAt_eq_of_cover 5 (result m c) (fun t hf => flushed_eq m c hX t hf) (cover)

/-- The kernel's run, read: its result array at the reference's result of the input, the input unchanged. -/
theorem run (hX : ∀ c : Dev nD, Finite (argX m c)) :
    θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0) :=
  (θ_run defs _ _).mono (fun r h c => ⟨(h c).1.trans (final m c (hX c)), (h c).2⟩)
    (Cert.KernelIdeal.Value.run_blocks m ρ)

end Cert.KernelIdeal.Result

end
-- ==== Proof.lean ====
/-
  Attention over 4096 rows, computed by a kernel that walks each block of 512 query rows across sixteen blocks of 256 key
  and value rows with a running maximum, a running denominator and a running accumulator, against the direct
  computation softmax(q·kᵀ / 2)·v.

  Over the exact extended reals, with every input entry a real number:
  the kernel's split of the queries and keys into a high and a low part adds two products whose low factors are entries
  minus themselves, that is zero, so its logits are the reference's; the running triple after the last key block is the
  denominator and the numerators of the softmax at the running maximum, and their quotient does not depend on which
  real shift was used, so it is the reference's softmax-weighted average. The three programs run without fault and leave
  the input as it was; the idealized kernel is the kernel's own text (no rewrite was applied).
-/
import proofs.«117004_j86260123173325_2_alg».proof.Defs
import proofs.«117004_j86260123173325_2_alg».proof.Proof.Gen.Kernel
import proofs.«117004_j86260123173325_2_alg».proof.Proof.Gen.Kernel.Frame
import proofs.«117004_j86260123173325_2_alg».proof.Proof.Gen.KernelIdeal
import proofs.«117004_j86260123173325_2_alg».proof.Proof.Gen.KernelIdeal.Frame
import proofs.«117004_j86260123173325_2_alg».proof.Proof.Gen.KernelIdeal.Value
import proofs.«117004_j86260123173325_2_alg».proof.Proof.Gen.ReferenceIdeal
import proofs.«117004_j86260123173325_2_alg».proof.Proof.Gen.ReferenceIdeal.Run
import proofs.«117004_j86260123173325_2_alg».proof.Proof.Gen.ReferenceIdeal.Read
import proofs.«117004_j86260123173325_2_alg».proof.Proof.Gen.Pre_finite_inputs
import proofs.«117004_j86260123173325_2_alg».proof.Proof.Reference
import proofs.«117004_j86260123173325_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the input, both programs end with the reference's result of that input. -/
theorem algebraic : Cert.algebraic_KernelIdeal_ReferenceIdeal := by
  intro m ρ m' ρ' hpre hagree
  refine ⟨fun c => Cert.KernelIdeal.Result.result m c,
    Cert.KernelIdeal.Result.run m ρ (fun c => Cert.Attention.finite_of_pre _ (hpre c)), ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.Read.val_main_v22_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
